-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x512x128 : Shape := ⟨3, ![128, 512, 128]⟩
abbrev S128x512 : Shape := ⟨2, ![128, 512]⟩
abbrev S_ : Shape := ⟨0, ![]⟩

class Facts : Prop where
  bcast_S_S128x512x128 : S_.BroadcastsInDim S128x512x128 (![] : Fin 0 → Fin S128x512x128.rank)
  reducesTo_S128x512x128_S_d0_1_2 : S128x512x128.ReducesTo [0, 1, 2] S_
  h_S_ : 0 < S_.numel

variable [Facts]

def fn {F : FTy → Type} [FloatOps F] (main_arg0 : FVec F S128x512x128 .f32) (main_arg1 : FVec F S128x512x128 .f32) (main_arg2 : IVec S128x512 32) : IVec S_ 1 :=
  let main_v0 : FVec F S128x512x128 .f32 := Host.absf main_arg0
  let main_cst : FVec F S_ .f32 := constant S_ .f32 0x7F800000#32
  let main_v1 : FVec F S128x512x128 .f32 := broadcastInDim S128x512x128 ![] bcast_S_S128x512x128 main_cst
  let main_v2 : IVec S128x512x128 1 := cmpf .olt main_v0 main_v1
  let main_c : IVec S_ 1 := constantI S_ 1 1#1
  let main_v3 : IVec S_ 1 := (fun x v => Host.reduce IntOp.andi x v reducesTo_S128x512x128_S_d0_1_2 h_S_) main_v2 main_c
  let main_v4 : FVec F S128x512x128 .f32 := Host.absf main_arg1
  let main_cst_0 : FVec F S_ .f32 := constant S_ .f32 0x7F800000#32
  let main_v5 : FVec F S128x512x128 .f32 := broadcastInDim S128x512x128 ![] bcast_S_S128x512x128 main_cst_0
  let main_v6 : IVec S128x512x128 1 := cmpf .olt main_v4 main_v5
  let main_c_1 : IVec S_ 1 := constantI S_ 1 1#1
  let main_v7 : IVec S_ 1 := (fun x v => Host.reduce IntOp.andi x v reducesTo_S128x512x128_S_d0_1_2 h_S_) main_v6 main_c_1
  let main_v8 : IVec S_ 1 := andi main_v3 main_v7
  main_v8
-- ==== Kernel.lean ====
abbrev S128x512x128 : Shape := ⟨3, ![128, 512, 128]⟩
abbrev S128x512 : Shape := ⟨2, ![128, 512]⟩
abbrev S128x512x1 : Shape := ⟨3, ![128, 512, 1]⟩
abbrev S128x1x512 : Shape := ⟨3, ![128, 1, 512]⟩
abbrev S128x1x1 : Shape := ⟨3, ![128, 1, 1]⟩
abbrev S4x512x128 : Shape := ⟨3, ![4, 512, 128]⟩
abbrev S4x512x1 : Shape := ⟨3, ![4, 512, 1]⟩
abbrev S4x1x512 : Shape := ⟨3, ![4, 1, 512]⟩
abbrev S4x1x1 : Shape := ⟨3, ![4, 1, 1]⟩
abbrev S4x512x512 : Shape := ⟨3, ![4, 512, 512]⟩
abbrev S512x512 : Shape := ⟨2, ![512, 512]⟩
abbrev S4x512 : Shape := ⟨2, ![4, 512]⟩
abbrev S1x512x512 : Shape := ⟨3, ![1, 512, 512]⟩
abbrev S4x1 : Shape := ⟨2, ![4, 1]⟩
abbrev S_ : Shape := ⟨0, ![]⟩

abbrev nBuf : Space → Nat
  | .hbm => 9
  | .vmem => 10
  | .smem => 0
  | _ => 0

abbrev bufTy : (tb : Table) → Fin (tcTables nBuf tb) → BufTy
  | .hbm, ⟨0, _⟩ => ⟨S128x512x128, .f32⟩
  | .hbm, ⟨1, _⟩ => ⟨S128x512x128, .f32⟩
  | .hbm, ⟨2, _⟩ => ⟨S128x512, .i32⟩
  | .hbm, ⟨3, _⟩ => ⟨S128x512, .f32⟩
  | .hbm, ⟨4, _⟩ => ⟨S128x512x1, .f32⟩
  | .hbm, ⟨5, _⟩ => ⟨S128x1x512, .f32⟩
  | .hbm, ⟨6, _⟩ => ⟨S128x1x1, .f32⟩
  | .hbm, ⟨7, _⟩ => ⟨S_, .f32⟩
  | .hbm, ⟨8, _⟩ => ⟨S_, .f32⟩
  | .local _ .vmem, ⟨0, _⟩ => ⟨S4x512x128, .f32⟩
  | .local _ .vmem, ⟨1, _⟩ => ⟨S4x512x128, .f32⟩
  | .local _ .vmem, ⟨2, _⟩ => ⟨S4x512x128, .f32⟩
  | .local _ .vmem, ⟨3, _⟩ => ⟨S4x512x128, .f32⟩
  | .local _ .vmem, ⟨4, _⟩ => ⟨S4x512x1, .f32⟩
  | .local _ .vmem, ⟨5, _⟩ => ⟨S4x512x1, .f32⟩
  | .local _ .vmem, ⟨6, _⟩ => ⟨S4x1x512, .f32⟩
  | .local _ .vmem, ⟨7, _⟩ => ⟨S4x1x512, .f32⟩
  | .local _ .vmem, ⟨8, _⟩ => ⟨S4x1x1, .f32⟩
  | .local _ .vmem, ⟨9, _⟩ => ⟨S4x1x1, .f32⟩
  | _, _ => ⟨S128x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S128x512_S128x512x1 : S128x512.ShapeCasts S128x512x1
  shapeCasts_S128x512_S128x1x512 : S128x512.ShapeCasts S128x1x512
  inb_S4x512x1_S4x512x1_0_0_0 : ∀ a, (![0, 0, 0] : Fin 3 → Nat) a + S4x512x1.size a ≤ S4x512x1.size a
  h_S4x512x1 : 0 < S4x512x1.numel
  shapeCasts_S4x512x1_S4x512x1 : S4x512x1.ShapeCasts S4x512x1
  inb_S4x1x512_S4x1x512_0_0_0 : ∀ a, (![0, 0, 0] : Fin 3 → Nat) a + S4x1x512.size a ≤ S4x1x512.size a
  h_S4x1x512 : 0 < S4x1x512.numel
  shapeCasts_S4x1x512_S4x1x512 : S4x1x512.ShapeCasts S4x1x512
  broadcasts_S4x512x1_S4x512x512 : S4x512x1.Broadcasts S4x512x512
  broadcasts_S4x1x512_S4x512x512 : S4x1x512.Broadcasts S4x512x512
  inb_S4x512x128_S4x512x128_0_0_0 : ∀ a, (![0, 0, 0] : Fin 3 → Nat) a + S4x512x128.size a ≤ S4x512x128.size a
  h_S4x512x128 : 0 < S4x512x128.numel
  broadcasts_S4x512x1_S4x512x128 : S4x512x1.Broadcasts S4x512x128
  iota_S512x512_d0_w32 : S512x512.Iotas .tc 32 [0]
  iota_S512x512_d1_w32 : S512x512.Iotas .tc 32 [1]
  natLt_1_32 : 1 < 32
  reduces_S4x512x128_S4x512 : S4x512x128.Reduces [2] S4x512
  shapeCasts_S4x512_S4x512x1 : S4x512.ShapeCasts S4x512x1
  transposes_S4x512x1_p0_2_1_S4x1x512 : S4x512x1.Transposes [0, 2, 1] S4x1x512
  bitsLt_bf16_f32 : FTy.bits .bf16 < FTy.bits .f32
  shapeCasts_S512x512_S1x512x512 : S512x512.ShapeCasts S1x512x512
  broadcasts_S1x512x512_S4x512x512 : S1x512x512.Broadcasts S4x512x512
  reduces_S4x512x512_S4x512 : S4x512x512.Reduces [2] S4x512
  reduces_S4x512x1_S4x1 : S4x512x1.Reduces [1] S4x1
  shapeCasts_S4x1_S4x1x1 : S4x1.ShapeCasts S4x1x1
  broadcasts_S4x1x1_S4x512x512 : S4x1x1.Broadcasts S4x512x512
  inb_S4x1x1_S4x1x1_0_0_0 : ∀ a, (![0, 0, 0] : Fin 3 → Nat) a + S4x1x1.size a ≤ S4x1x1.size a
  h_S4x1x1 : 0 < S4x1x1.numel
  reducesTo_S128x1x1_S_d0_1_2 : S128x1x1.ReducesTo [0, 1, 2] S_
  h_S_ : 0 < S_.numel
  dot_S4x512x128_S4x512x128_S4x512x512_2_2_1_1_0_0_wf : DotDims.WF S4x512x128 S4x512x128 S4x512x512 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x128.size a ≤ S128x512x128.size a
  hwx0_0 : ∀ i : grid0.Coords, EltTy.bits .f32 = 32 ∨ (Rect.block (s := S128x512x128) S4x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512x128.size a ≤ S128x512x128.size a
  hwx0_1 : ∀ i : grid0.Coords, EltTy.bits .f32 = 32 ∨ (Rect.block (s := S128x512x128) S4x512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x512x1.size a ≤ S128x512x1.size a
  hwx0_2 : ∀ i : grid0.Coords, EltTy.bits .f32 = 32 ∨ (Rect.block (s := S128x512x1) S4x512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x1x512.size a ≤ S128x1x512.size a
  hwx0_3 : ∀ i : grid0.Coords, EltTy.bits .f32 = 32 ∨ (Rect.block (s := S128x1x512) S4x1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x1x1.size a ≤ S128x1x1.size a
  hwx0_4 : ∀ i : grid0.Coords, EltTy.bits .f32 = 32 ∨ (Rect.block (s := S128x1x1) S4x1x1.size (cc0_transform_4 i) (hinb0_4 i)).WholeWords (EltTy.packing .f32)

variable [Facts₀]

def dot_S4x512x128_S4x512x128_S4x512x512_2_2_1_1_0_0 : DotDims S4x512x128 S4x512x128 S4x512x512 where
  lhsContracting := [2]
  rhsContracting := [2]
  lhsNonContracting := [1]
  rhsNonContracting := [1]
  lhsBatch := [0]
  rhsBatch := [0]
  wf := dot_S4x512x128_S4x512x128_S4x512x512_2_2_1_1_0_0_wf

abbrev win0_0 : Pipeline.Window sig grid0 :=
  Pipeline.Window.ofSpec (Memref.whole main_arg0) S4x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4x512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S4x1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S4x1x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S128x512x128 : Shape := ⟨3, ![128, 512, 128]⟩
abbrev S128x512 : Shape := ⟨2, ![128, 512]⟩
abbrev S128x512x1 : Shape := ⟨3, ![128, 512, 1]⟩
abbrev S128x1x512 : Shape := ⟨3, ![128, 1, 512]⟩
abbrev S128x512x512 : Shape := ⟨3, ![128, 512, 512]⟩
abbrev S_ : Shape := ⟨0, ![]⟩
abbrev S128x128x512 : Shape := ⟨3, ![128, 128, 512]⟩
abbrev S512x512 : Shape := ⟨2, ![512, 512]⟩
abbrev S1x512x512 : Shape := ⟨3, ![1, 512, 512]⟩
abbrev S128 : Shape := ⟨1, ![128]⟩
abbrev S128x1x1 : Shape := ⟨3, ![128, 1, 1]⟩

abbrev nBuf : Space → Nat
  | .hbm => 145
  | .vmem => 0
  | .smem => 0
  | _ => 0

abbrev hbmTy0_0 (i : Nat) : BufTy := match i % 128 with
  | 0 => ⟨S128x512x128, .f32⟩
  | 1 => ⟨S128x512x128, .f32⟩
  | 2 => ⟨S128x512, .i32⟩
  | 3 => ⟨S128x512, .f32⟩
  | 4 => ⟨S128x512x1, .f32⟩
  | 5 => ⟨S128x512x128, .f32⟩
  | 6 => ⟨S128x512x128, .f32⟩
  | 7 => ⟨S128x512x1, .f32⟩
  | 8 => ⟨S128x512x128, .f32⟩
  | 9 => ⟨S128x512x128, .f32⟩
  | 10 => ⟨S128x512x1, .f32⟩
  | 11 => ⟨S128x1x512, .f32⟩
  | 12 => ⟨S128x512x512, .f32⟩
  | 13 => ⟨S128x512x512, .f32⟩
  | 14 => ⟨S128x512x512, .f32⟩
  | 15 => ⟨S128x512x128, .f32⟩
  | 16 => ⟨S_, .f32⟩
  | 17 => ⟨S128x512, .f32⟩
  | 18 => ⟨S128x512x1, .f32⟩
  | 19 => ⟨S128x1x512, .f32⟩
  | 20 => ⟨S128x512x512, .f32⟩
  | 21 => ⟨S128x512x512, .f32⟩
  | 22 => ⟨S128x512x512, .f32⟩
  | 23 => ⟨S128x128x512, .f32⟩
  | 24 => ⟨S128x512x512, .f32⟩
  | 25 => ⟨S_, .f32⟩
  | 26 => ⟨S128x512x512, .f32⟩
  | 27 => ⟨S128x512x512, .f32⟩
  | 28 => ⟨S128x512x512, .f32⟩
  | 29 => ⟨S_, .f32⟩
  | 30 => ⟨S_, .f32⟩
  | 31 => ⟨S128x512x512, .f32⟩
  | 32 => ⟨S128x512x512, .f32⟩
  | 33 => ⟨S128x512x512, .f32⟩
  | 34 => ⟨S512x512, .i32⟩
  | 35 => ⟨S512x512, .i32⟩
  | 36 => ⟨S_, .i32⟩
  | 37 => ⟨S512x512, .i32⟩
  | 38 => ⟨S512x512, .i32⟩
  | 39 => ⟨S512x512, .i1⟩
  | 40 => ⟨S512x512, .f32⟩
  | 41 => ⟨S_, .f32⟩
  | 42 => ⟨S512x512, .f32⟩
  | 43 => ⟨S512x512, .f32⟩
  | 44 => ⟨S1x512x512, .f32⟩
  | 45 => ⟨S128x512x512, .f32⟩
  | 46 => ⟨S128x512x512, .f32⟩
  | 47 => ⟨S128x512x128, .f32⟩
  | 48 => ⟨S_, .f32⟩
  | 49 => ⟨S128x512, .f32⟩
  | 50 => ⟨S128x512x1, .f32⟩
  | 51 => ⟨S128x1x512, .f32⟩
  | 52 => ⟨S128x512x512, .f32⟩
  | 53 => ⟨S128x512x512, .f32⟩
  | 54 => ⟨S128x512x512, .f32⟩
  | 55 => ⟨S128x128x512, .f32⟩
  | 56 => ⟨S128x512x512, .f32⟩
  | 57 => ⟨S_, .f32⟩
  | 58 => ⟨S128x512x512, .f32⟩
  | 59 => ⟨S128x512x512, .f32⟩
  | 60 => ⟨S128x512x512, .f32⟩
  | 61 => ⟨S_, .f32⟩
  | 62 => ⟨S_, .f32⟩
  | 63 => ⟨S128x512x512, .f32⟩
  | 64 => ⟨S128x512x512, .f32⟩
  | 65 => ⟨S128x512x512, .f32⟩
  | 66 => ⟨S512x512, .i32⟩
  | 67 => ⟨S512x512, .i32⟩
  | 68 => ⟨S_, .i32⟩
  | 69 => ⟨S512x512, .i32⟩
  | 70 => ⟨S512x512, .i32⟩
  | 71 => ⟨S512x512, .i1⟩
  | 72 => ⟨S512x512, .f32⟩
  | 73 => ⟨S_, .f32⟩
  | 74 => ⟨S512x512, .f32⟩
  | 75 => ⟨S512x512, .f32⟩
  | 76 => ⟨S1x512x512, .f32⟩
  | 77 => ⟨S128x512x512, .f32⟩
  | 78 => ⟨S128x512x512, .f32⟩
  | 79 => ⟨S_, .f32⟩
  | 80 => ⟨S128x512x512, .f32⟩
  | 81 => ⟨S128x512x512, .i1⟩
  | 82 => ⟨S128x512x512, .f32⟩
  | 83 => ⟨S128x512x512, .f32⟩
  | 84 => ⟨S_, .f32⟩
  | 85 => ⟨S128x512x512, .f32⟩
  | 86 => ⟨S128x512x512, .i1⟩
  | 87 => ⟨S128x512x512, .f32⟩
  | 88 => ⟨S128x512x512, .f32⟩
  | 89 => ⟨S128x512x512, .f32⟩
  | 90 => ⟨S_, .f32⟩
  | 91 => ⟨S128, .f32⟩
  | 92 => ⟨S_, .f32⟩
  | 93 => ⟨S128, .f32⟩
  | 94 => ⟨S_, .f32⟩
  | 95 => ⟨S128, .f32⟩
  | 96 => ⟨S128, .f32⟩
  | 97 => ⟨S128, .f32⟩
  | 98 => ⟨S128x512x512, .f32⟩
  | 99 => ⟨S_, .f32⟩
  | 100 => ⟨S128, .f32⟩
  | 101 => ⟨S_, .f32⟩
  | 102 => ⟨S128, .f32⟩
  | 103 => ⟨S_, .f32⟩
  | 104 => ⟨S128, .f32⟩
  | 105 => ⟨S128, .f32⟩
  | 106 => ⟨S128, .f32⟩
  | 107 => ⟨S128x1x1, .f32⟩
  | 108 => ⟨S128x512x512, .f32⟩
  | 109 => ⟨S128x512x512, .f32⟩
  | 110 => ⟨S128x1x1, .f32⟩
  | 111 => ⟨S128x512x512, .f32⟩
  | 112 => ⟨S128x512x512, .f32⟩
  | 113 => ⟨S128x512x512, .f32⟩
  | 114 => ⟨S128x512x512, .f32⟩
  | 115 => ⟨S_, .f32⟩
  | 116 => ⟨S128x512x512, .f32⟩
  | 117 => ⟨S128x512x512, .i1⟩
  | 118 => ⟨S_, .f32⟩
  | 119 => ⟨S128x512x512, .f32⟩
  | 120 => ⟨S128x512x512, .f32⟩
  | 121 => ⟨S128x512x512, .f32⟩
  | 122 => ⟨S_, .f32⟩
  | 123 => ⟨S128x512x512, .f32⟩
  | 124 => ⟨S128x512x512, .f32⟩
  | 125 => ⟨S128x512x512, .f32⟩
  | 126 => ⟨S_, .f32⟩
  | 127 => ⟨S128, .f32⟩
  | _ => ⟨S128x512x128, .f32⟩

abbrev hbmTy0_1 (i : Nat) : BufTy := match i % 128 with
  | 0 => ⟨S128x512x512, .f32⟩
  | 1 => ⟨S_, .f32⟩
  | 2 => ⟨S128, .f32⟩
  | 3 => ⟨S128, .f32⟩
  | 4 => ⟨S_, .f32⟩
  | 5 => ⟨S128, .f32⟩
  | 6 => ⟨S128, .f32⟩
  | 7 => ⟨S128, .f32⟩
  | 8 => ⟨S_, .f32⟩
  | 9 => ⟨S128, .f32⟩
  | 10 => ⟨S128, .i1⟩
  | 11 => ⟨S_, .f32⟩
  | 12 => ⟨S_, .f32⟩
  | 13 => ⟨S128, .f32⟩
  | 14 => ⟨S128, .f32⟩
  | 15 => ⟨S_, .f32⟩
  | 16 => ⟨S_, .f32⟩
  | _ => ⟨S128x512x128, .f32⟩

abbrev hbmTy (i : Nat) : BufTy := match i / 128 with
  | 0 => hbmTy0_0 i
  | 1 => hbmTy0_1 i
  | _ => ⟨S128x512x128, .f32⟩

abbrev bufTy : (tb : Table) → Fin (tcTables nBuf tb) → BufTy
  | .hbm, ⟨i, _⟩ => hbmTy i
  | _, _ => ⟨S128x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_0 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_1 : Ref sig .tc := ⟨.hbm, 29, rfl⟩
abbrev main_call0_v0 : Ref sig .tc := ⟨.hbm, 30, rfl⟩
abbrev main_call0_v1 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_2 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_3 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_4 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_5 : Ref sig .tc := ⟨.hbm, 61, rfl⟩
abbrev main_call1_v0 : Ref sig .tc := ⟨.hbm, 62, rfl⟩
abbrev main_call1_v1 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_c_6 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_7 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_8 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_9 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_cst_10 : Ref sig .tc := ⟨.hbm, 90, rfl⟩
abbrev main_v71 : Ref sig .tc := ⟨.hbm, 91, rfl⟩
abbrev main_cst_11 : Ref sig .tc := ⟨.hbm, 92, rfl⟩
abbrev main_v72 : Ref sig .tc := ⟨.hbm, 93, rfl⟩
abbrev main_cst_12 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_cst_13 : Ref sig .tc := ⟨.hbm, 99, rfl⟩
abbrev main_v77 : Ref sig .tc := ⟨.hbm, 100, rfl⟩
abbrev main_cst_14 : Ref sig .tc := ⟨.hbm, 101, rfl⟩
abbrev main_v78 : Ref sig .tc := ⟨.hbm, 102, rfl⟩
abbrev main_cst_15 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_cst_16 : Ref sig .tc := ⟨.hbm, 115, rfl⟩
abbrev main_v90 : Ref sig .tc := ⟨.hbm, 116, rfl⟩
abbrev main_v91 : Ref sig .tc := ⟨.hbm, 117, rfl⟩
abbrev main_cst_17 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_cst_18 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_cst_19 : Ref sig .tc := ⟨.hbm, 126, rfl⟩
abbrev main_v98 : Ref sig .tc := ⟨.hbm, 127, rfl⟩
abbrev main_v99 : Ref sig .tc := ⟨.hbm, 128, rfl⟩
abbrev main_cst_20 : Ref sig .tc := ⟨.hbm, 129, rfl⟩
abbrev main_v100 : Ref sig .tc := ⟨.hbm, 130, rfl⟩
abbrev main_v101 : Ref sig .tc := ⟨.hbm, 131, rfl⟩
abbrev main_cst_21 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_cst_22 : Ref sig .tc := ⟨.hbm, 136, rfl⟩
abbrev main_v105 : Ref sig .tc := ⟨.hbm, 137, rfl⟩
abbrev main_v106 : Ref sig .tc := ⟨.hbm, 138, rfl⟩
abbrev main_cst_23 : Ref sig .tc := ⟨.hbm, 139, rfl⟩
abbrev main_call3_v0 : Ref sig .tc := ⟨.hbm, 140, rfl⟩
abbrev main_call3_v1 : Ref sig .tc := ⟨.hbm, 141, rfl⟩
abbrev main_v107 : Ref sig .tc := ⟨.hbm, 142, rfl⟩
abbrev main_cst_24 : Ref sig .tc := ⟨.hbm, 143, rfl⟩
abbrev main_v108 : Ref sig .tc := ⟨.hbm, 144, rfl⟩

abbrev nD : Nat := 1
abbrev τ : Topo := Topo.v7x

variable {F : FTy → Type} [FloatOps F]

class Facts₀ : Prop where
  bcast_S128x512_S128x512x1_0_1 : S128x512.BroadcastsInDim S128x512x1 (![0, 1] : Fin 2 → Fin S128x512x1.rank)
  bcast_S128x512x1_S128x512x128_0_1_2 : S128x512x1.BroadcastsInDim S128x512x128 (![0, 1, 2] : Fin 3 → Fin S128x512x128.rank)
  bcast_S128x512_S128x1x512_0_2 : S128x512.BroadcastsInDim S128x1x512 (![0, 2] : Fin 2 → Fin S128x1x512.rank)
  bcast_S128x512x1_S128x512x512_0_1_2 : S128x512x1.BroadcastsInDim S128x512x512 (![0, 1, 2] : Fin 3 → Fin S128x512x512.rank)
  bcast_S128x1x512_S128x512x512_0_1_2 : S128x1x512.BroadcastsInDim S128x512x512 (![0, 1, 2] : Fin 3 → Fin S128x512x512.rank)
  reducesTo_S128x512x128_S128x512_d2 : S128x512x128.ReducesTo [2] S128x512
  h_S_ : 0 < S_.numel
  transposes_S128x512x128_S128x128x512_0_2_1 : S128x512x128.Transposes [0, 2, 1] S128x128x512
  bcast_S_S128x512x512 : S_.BroadcastsInDim S128x512x512 (![] : Fin 0 → Fin S128x512x512.rank)
  bcast_S_S512x512 : S_.BroadcastsInDim S512x512 (![] : Fin 0 → Fin S512x512.rank)
  bcast_S512x512_S1x512x512_1_2 : S512x512.BroadcastsInDim S1x512x512 (![1, 2] : Fin 2 → Fin S1x512x512.rank)
  bcast_S1x512x512_S128x512x512_0_1_2 : S1x512x512.BroadcastsInDim S128x512x512 (![0, 1, 2] : Fin 3 → Fin S128x512x512.rank)
  reducesTo_S128x512x512_S128_d1_2 : S128x512x512.ReducesTo [1, 2] S128
  bcast_S_S128 : S_.BroadcastsInDim S128 (![] : Fin 0 → Fin S128.rank)
  bcast_S128_S128x1x1_0 : S128.BroadcastsInDim S128x1x1 (![0] : Fin 1 → Fin S128x1x1.rank)
  bcast_S128x1x1_S128x512x512_0_1_2 : S128x1x1.BroadcastsInDim S128x512x512 (![0, 1, 2] : Fin 3 → Fin S128x512x512.rank)
  reducesTo_S128x512_S128_d1 : S128x512.ReducesTo [1] S128
  reducesTo_S128_S_d0 : S128.ReducesTo [0] S_
  dot_S128x512x128_S128x128x512_S128x512x512_2_1_1_2_0_0_wf : DotDims.WF S128x512x128 S128x128x512 S128x512x512 [2] [1] [1] [2] [0] [0]

variable [Facts₀]

def dot_S128x512x128_S128x128x512_S128x512x512_2_1_1_2_0_0 : DotDims S128x512x128 S128x128x512 S128x512x512 where
  lhsContracting := [2]
  rhsContracting := [1]
  lhsNonContracting := [1]
  rhsNonContracting := [2]
  lhsBatch := [0]
  rhsBatch := [0]
  wf := dot_S128x512x128_S128x128x512_S128x512x512_2_1_1_2_0_0_wf

class Facts : Prop extends Facts₀ where

variable [Facts]
-- ==== Proof.RelDist.lean ====
/-
  The loss both programs compute, as ONE function on the extended reals.

  A sample is a pair of embeddings `s t : 512 × 128` (student, teacher) and a mask `mk : 512`. Rows are masked
  (`x c l · mk c`); `dist e c d = √(max(‖e c‖² + ‖e d‖² − 2⟨e c, e d⟩, ε)) · [c ≠ d]` is the pairwise distance with
  a zero diagonal; a pair (c, d) counts when both rows are kept and the distance is positive
  (`pos = mk c · mk d · [dist > 0]`); `mean` is the mean distance over the counted pairs (a count below one read as
  one); the loss is the Huber function of the difference of the two mean-normalised distances, summed over the kept
  pairs, divided by `max(k², 1)` where `k = Σ mk`, and taken to be zero unless `k > 1`. The programs' result is the sum of
  the loss over the 128 samples.

  Every operation is the extended reals' own (`Ideal.div`, `Ideal.sqrt`, `Ideal.cmp`, `max`); the five float literals
  stay as their words (the same word stands on both sides, so none is ever evaluated here).
-/
import Idealize.ShloMosaic.PureOps.Ideal
import Idealize.ShloMosaic.PureOps.Ideal.Laws
import Idealize.ShloMosaic.Lib.ValueIdx

noncomputable section

namespace Cert.RelDist

open Idealize.ShloMosaic

/-- The float literals of the loss, as the words both programs print. -/
abbrev zero : EReal := Ideal.ofBits .f32 0x00000000#32
abbrev one : EReal := Ideal.ofBits .f32 0x3F800000#32
abbrev half : EReal := Ideal.ofBits .f32 0x3F000000#32
abbrev two : EReal := Ideal.ofBits .f32 0x40000000#32
abbrev eps : EReal := Ideal.ofBits .f32 0x2B8CBCCC#32

/-- A one-bit word as a number: 0 or 1 (the word widened to 32 bits, read as a signed integer). -/
def bit (b : BitVec 1) : EReal := FloatOps.sitofp (F := Ideal) .f32 (b.setWidth 32)

/-- 1 off the diagonal, 0 on it: the comparison of the two coordinates as 32-bit words. -/
def offd (c d : Fin 512) : EReal := bit (IntOp.cmpi .ne (BitVec.ofNat 32 c.val) (BitVec.ofNat 32 d.val))

/-- A row of an embedding scaled by its mask entry. -/
def masked (x : Fin 512 → Fin 128 → EReal) (mk : Fin 512 → EReal) (c : Fin 512) (l : Fin 128) : EReal := x c l * mk c

/-- The squared norm of row `c`. -/
def sqn (e : Fin 512 → Fin 128 → EReal) (c : Fin 512) : EReal := ∑ l : Fin 128, e c l * e c l

/-- The inner product of rows `c` and `d`. -/
def gram (e : Fin 512 → Fin 128 → EReal) (c d : Fin 512) : EReal := ∑ l : Fin 128, e c l * e d l

/-- The distance between rows `c` and `d`, clamped below at ε under the root, zero on the diagonal. -/
def dist (e : Fin 512 → Fin 128 → EReal) (c d : Fin 512) : EReal :=
  Ideal.sqrt (max (sqn e c + sqn e d - two * gram e c d) eps) * offd c d

/-- 1 where `x` is positive, else 0. -/
def ind (x : EReal) : EReal := bit (Ideal.cmp .ogt x zero)

/-- The pair mask. -/
def pairm (mk : Fin 512 → EReal) (c d : Fin 512) : EReal := mk c * mk d

/-- The counted pairs of a distance matrix: both rows kept, distance positive. -/
def pos (mk : Fin 512 → EReal) (D : Fin 512 → Fin 512 → EReal) (c d : Fin 512) : EReal := pairm mk c d * ind (D c d)

/-- The sum of a 512 × 512 matrix, row by row. -/
def tot (f : Fin 512 → Fin 512 → EReal) : EReal := ∑ c : Fin 512, ∑ d : Fin 512, f c d

/-- The mean distance over the counted pairs. -/
def mean (mk : Fin 512 → EReal) (D : Fin 512 → Fin 512 → EReal) : EReal :=
  Ideal.div (tot fun c d => D c d * pos mk D c d) (max (tot (pos mk D)) one)

/-- The Huber function with threshold one: `x²/2` where `|x| < 1`, else `|x| − 1/2`. -/
def huber (x : EReal) : EReal :=
  Scalar.select (Ideal.cmp .olt (max x (-x)) one) (half * x * x) (max x (-x) - half)

/-- The number of kept rows. -/
def cnt (mk : Fin 512 → EReal) : EReal := ∑ c : Fin 512, mk c

/-- The difference of the two mean-normalised distances at a pair. -/
def ndiff (mk : Fin 512 → EReal) (Ds Dt : Fin 512 → Fin 512 → EReal) (c d : Fin 512) : EReal :=
  Ideal.div (Ds c d) (mean mk Ds) - Ideal.div (Dt c d) (mean mk Dt)

/-- One sample's loss. -/
def loss (s t : Fin 512 → Fin 128 → EReal) (mk : Fin 512 → EReal) : EReal :=
  Scalar.select (Ideal.cmp .ogt (cnt mk) one)
    (Ideal.div (tot fun c d => huber (ndiff mk (dist (masked s mk)) (dist (masked t mk)) c d) * pairm mk c d)
      (max (cnt mk * cnt mk) one))
    zero

/-- Sample `n`'s loss read off the three argument arrays: the embeddings' rows of sample `n`, and the integer mask's
    row read as numbers. -/
def sample (X0 X1 : (⟨3, ![128, 512, 128]⟩ : Shape).Idx → EReal) (X2 : (⟨2, ![128, 512]⟩ : Shape).Idx → BitVec 32)
    (n : Fin 128) : EReal :=
  loss (fun c l => X0 (ValueIdx.ix3 n c l)) (fun c l => X1 (ValueIdx.ix3 n c l))
    (fun c => FloatOps.sitofp (F := Ideal) .f32 (X2 (ValueIdx.ix2 n c)))

/-- The programs' one result: the sum of the 128 samples' losses, from the zero word. -/
def total (X0 X1 : (⟨3, ![128, 512, 128]⟩ : Shape).Idx → EReal) (X2 : (⟨2, ![128, 512]⟩ : Shape).Idx → BitVec 32) :
    (⟨0, ![]⟩ : Shape).Idx → EReal :=
  fun _ => zero + ∑ n : Fin 128, sample X0 X1 X2 n

end Cert.RelDist

end
-- ==== Proof.BodyValue.lean ====
/-
  The kernel body's stored vector, read at a sample of the block.

  A grid point holds four samples. From the four loaded blocks — student and teacher embeddings `x0 x1 : 4 × 512 × 128`,
  the mask as a column `x2 : 4 × 512 × 1` and as a row `x3 : 4 × 1 × 512` — the body stores a `4 × 1 × 1` vector; at sample
  `b` it is that sample's loss (Proof/RelDist.lean) of the sample's rows of the three blocks, provided the row form of
  the mask is the column form laid along the last axis.
-/
import proofs.«146603_j2585570312402_1_alg».proof.Proof.Gen.KernelIdeal.Skeleton
import proofs.«146603_j2585570312402_1_alg».proof.Proof.RelDist
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BodyValue

open Cert.KernelIdeal Cert.KernelIdeal.Gen Idealize.ShloMosaic Idealize.ShloMosaic.ValueIdx

/-! ## Layout operations of the body read at an index

Each broadcast, reshape and transpose of the body moves one coordinate; read at an index written by its coordinates it is
the operand at the index with that coordinate moved. -/

section Layout
variable {α : Type}

/-- A column `[4,512,1]` broadcast along the last axis to `[4,512,512]` reads the column at the row. -/
theorem bcast_col (v : S4x512x1.Idx → α) (b : Fin 4) (c d : Fin 512) :
    broadcastTo S4x512x512 v broadcasts_S4x512x1_S4x512x512 (ix3 b c d) = v (ix3 b c (0 : Fin 1)) :=
  broadcastTo_apply v _ (ix3 b c d) (ix3 b c (0 : Fin 1)) fun a => by
    match a with
    | ⟨0, _⟩ => rfl
    | ⟨1, _⟩ => rfl
    | ⟨2, _⟩ => rfl

/-- A row `[4,1,512]` broadcast along the middle axis to `[4,512,512]` reads the row at the column. -/
theorem bcast_row (v : S4x1x512.Idx → α) (b : Fin 4) (c d : Fin 512) :
    broadcastTo S4x512x512 v broadcasts_S4x1x512_S4x512x512 (ix3 b c d) = v (ix3 b (0 : Fin 1) d) :=
  broadcastTo_apply v _ (ix3 b c d) (ix3 b (0 : Fin 1) d) fun a => by
    match a with
    | ⟨0, _⟩ => rfl
    | ⟨1, _⟩ => rfl
    | ⟨2, _⟩ => rfl

/-- A per-sample scalar `[4,1,1]` broadcast to `[4,512,512]` reads the sample's scalar. -/
theorem bcast_one (v : S4x1x1.Idx → α) (b : Fin 4) (c d : Fin 512) :
    broadcastTo S4x512x512 v broadcasts_S4x1x1_S4x512x512 (ix3 b c d) = v (ix3 b (0 : Fin 1) (0 : Fin 1)) :=
  broadcastTo_apply v _ (ix3 b c d) (ix3 b (0 : Fin 1) (0 : Fin 1)) fun a => by
    match a with
    | ⟨0, _⟩ => rfl
    | ⟨1, _⟩ => rfl
    | ⟨2, _⟩ => rfl

/-- A column `[4,512,1]` broadcast along the features to `[4,512,128]` reads the column at the row. -/
theorem bcast_lane (v : S4x512x1.Idx → α) (b : Fin 4) (c : Fin 512) (l : Fin 128) :
    broadcastTo S4x512x128 v broadcasts_S4x512x1_S4x512x128 (ix3 b c l) = v (ix3 b c (0 : Fin 1)) :=
  broadcastTo_apply v _ (ix3 b c l) (ix3 b c (0 : Fin 1)) fun a => by
    match a with
    | ⟨0, _⟩ => rfl
    | ⟨1, _⟩ => rfl
    | ⟨2, _⟩ => rfl

/-- One matrix `[1,512,512]` broadcast over the four samples reads the matrix. -/
theorem bcast_sample (v : S1x512x512.Idx → α) (b : Fin 4) (c d : Fin 512) :
    broadcastTo S4x512x512 v broadcasts_S1x512x512_S4x512x512 (ix3 b c d) = v (ix3 (0 : Fin 1) c d) :=
  broadcastTo_apply v _ (ix3 b c d) (ix3 (0 : Fin 1) c d) fun a => by
    match a with
    | ⟨0, _⟩ => rfl
    | ⟨1, _⟩ => rfl
    | ⟨2, _⟩ => rfl

/-- `[4,512]` reshaped to the column `[4,512,1]`. -/
theorem cast_col (v : S4x512.Idx → α) (b : Fin 4) (c : Fin 512) (u : Fin 1) :
    shapeCast S4x512x1 v shapeCasts_S4x512_S4x512x1 (ix3 b c u) = v (ix2 b c) :=
  shapeCast_apply v _ _ _ (by
    have hu : u.val = 0 := by omega
    rw [Shape.rowMajor_val_three, Shape.rowMajor_val_two]
    show b.val * 512 + c.val = (b.val * 512 + c.val) * 1 + u.val
    omega)

/-- `[4,1]` reshaped to `[4,1,1]`. -/
theorem cast_one (v : S4x1.Idx → α) (b : Fin 4) (u w : Fin 1) :
    shapeCast S4x1x1 v shapeCasts_S4x1_S4x1x1 (ix3 b u w) = v (ix2 b (0 : Fin 1)) :=
  shapeCast_apply v _ _ _ (by
    have hu : u.val = 0 := by omega
    have hw : w.val = 0 := by omega
    rw [Shape.rowMajor_val_three, Shape.rowMajor_val_two]
    show b.val * 1 + 0 = (b.val * 1 + u.val) * 1 + w.val
    omega)

/-- `[512,512]` given a leading unit axis. -/
theorem cast_lead (v : S512x512.Idx → α) (u : Fin 1) (c d : Fin 512) :
    shapeCast S1x512x512 v shapeCasts_S512x512_S1x512x512 (ix3 u c d) = v (ix2 c d) :=
  shapeCast_ab_1ab_apply v _ u c d

/-- The column `[4,512,1]` transposed to the row `[4,1,512]`. -/
theorem transpose_col (v : S4x512x1.Idx → α) (b : Fin 4) (u : Fin 1) (d : Fin 512) :
    transpose S4x1x512 [0, 2, 1] v transposes_S4x512x1_p0_2_1_S4x1x512 (ix3 b u d) = v (ix3 b d u) :=
  transpose_ix3_021_apply v _ b u d

end Layout

/-! ## The body's sums read at an index -/

section Sums

/-- The sum over the features of a `[4,512,128]` vector, at a row. -/
theorem sum_feat (v : FVec Ideal S4x512x128 .f32) (b : Fin 4) (c : Fin 512) :
    multiReduction .add [2] S4x512 v 0x00000000#32 reduces_S4x512x128_S4x512 (.inl rfl) rfl (ix2 b c)
      = ∑ l : Fin 128, v (ix3 b c l) :=
  (Ideal.multiReduction_add_single v 0x00000000#32 reduces_S4x512x128_S4x512 (.inl rfl) rfl (ix2 b c)).trans
    (Finset.sum_congr rfl fun l _ => congrArg v (funext fun a => by
      match a with
      | ⟨0, _⟩ => exact Fin.ext rfl
      | ⟨1, _⟩ => exact Fin.ext rfl
      | ⟨2, _⟩ => exact Fin.ext rfl))

/-- The sum over the columns of a `[4,512,512]` vector, at a row. -/
theorem sum_cols (v : FVec Ideal S4x512x512 .f32) (b : Fin 4) (c : Fin 512) :
    multiReduction .add [2] S4x512 v 0x00000000#32 reduces_S4x512x512_S4x512 (.inl rfl) rfl (ix2 b c)
      = ∑ d : Fin 512, v (ix3 b c d) :=
  (Ideal.multiReduction_add_single v 0x00000000#32 reduces_S4x512x512_S4x512 (.inl rfl) rfl (ix2 b c)).trans
    (Finset.sum_congr rfl fun d _ => congrArg v (funext fun a => by
      match a with
      | ⟨0, _⟩ => exact Fin.ext rfl
      | ⟨1, _⟩ => exact Fin.ext rfl
      | ⟨2, _⟩ => exact Fin.ext rfl))

/-- The sum over the rows of a column `[4,512,1]`, at a sample. -/
theorem sum_rows (v : FVec Ideal S4x512x1 .f32) (b : Fin 4) (u : Fin 1) :
    multiReduction .add [1] S4x1 v 0x00000000#32 reduces_S4x512x1_S4x1 (.inl rfl) rfl (ix2 b u)
      = ∑ c : Fin 512, v (ix3 b c u) :=
  (Ideal.multiReduction_add_single v 0x00000000#32 reduces_S4x512x1_S4x1 (.inl rfl) rfl (ix2 b u)).trans
    (Finset.sum_congr rfl fun c _ => congrArg v (funext fun a => by
      match a with
      | ⟨0, _⟩ => exact Fin.ext rfl
      | ⟨1, _⟩ => exact Fin.ext rfl
      | ⟨2, _⟩ => exact Fin.ext rfl))

/-- The body's total of a `[4,512,512]` vector — the columns summed, the result laid as a column, the rows summed, the
    result laid as `[4,1,1]` — is, at a sample, the double sum over the sample's matrix. -/
theorem total_apply (w : FVec Ideal S4x512x512 .f32) (b : Fin 4) :
    shapeCast S4x1x1
        (multiReduction .add [1] S4x1
          (shapeCast S4x512x1 (multiReduction .add [2] S4x512 w 0x00000000#32 reduces_S4x512x512_S4x512 (.inl rfl) rfl)
            shapeCasts_S4x512_S4x512x1)
          0x00000000#32 reduces_S4x512x1_S4x1 (.inl rfl) rfl)
        shapeCasts_S4x1_S4x1x1 (ix3 b (0 : Fin 1) (0 : Fin 1))
      = ∑ c : Fin 512, ∑ d : Fin 512, w (ix3 b c d) := by
  rw [cast_one, sum_rows]
  refine Finset.sum_congr rfl fun c _ => ?_
  rw [cast_col, sum_cols]

/-- The sum over the rows of a column laid as `[4,1,1]`. -/
theorem count_apply (v : FVec Ideal S4x512x1 .f32) (b : Fin 4) :
    shapeCast S4x1x1 (multiReduction .add [1] S4x1 v 0x00000000#32 reduces_S4x512x1_S4x1 (.inl rfl) rfl)
        shapeCasts_S4x1_S4x1x1 (ix3 b (0 : Fin 1) (0 : Fin 1))
      = ∑ c : Fin 512, v (ix3 b c (0 : Fin 1)) := by
  rw [cast_one, sum_rows]

end Sums

/-! ## The body's matrix product read at an index

The product contracts the features of two `[4,512,128]` operands sample by sample: at `(b, c, d)` it is the inner
product of rows `c` and `d` of sample `b`. -/

section Product

theorem lhs_coord0 (j : S4x512x512.Idx) (q : dot_S4x512x128_S4x512x128_S4x512x512_2_2_1_1_0_0.contr.Idx) :
    (dot_S4x512x128_S4x512x128_S4x512x512_2_2_1_1_0_0.lhsIdx j q 0).val = (j 0).val := by
  unfold DotDims.lhsIdx
  rw [dif_pos (show (0 : Fin S4x512x128.rank) ∈ dot_S4x512x128_S4x512x128_S4x512x512_2_2_1_1_0_0.lhsBatch by decide)]
  rfl
theorem lhs_coord1 (j : S4x512x512.Idx) (q : dot_S4x512x128_S4x512x128_S4x512x512_2_2_1_1_0_0.contr.Idx) :
    (dot_S4x512x128_S4x512x128_S4x512x512_2_2_1_1_0_0.lhsIdx j q 1).val = (j 1).val := by
  unfold DotDims.lhsIdx
  rw [dif_neg (show ¬(1 : Fin S4x512x128.rank) ∈ dot_S4x512x128_S4x512x128_S4x512x512_2_2_1_1_0_0.lhsBatch by decide),
    dif_pos (show (1 : Fin S4x512x128.rank) ∈ dot_S4x512x128_S4x512x128_S4x512x512_2_2_1_1_0_0.lhsNonContracting by decide)]
  rfl
theorem lhs_coord2 (j : S4x512x512.Idx) (q : dot_S4x512x128_S4x512x128_S4x512x512_2_2_1_1_0_0.contr.Idx) :
    (dot_S4x512x128_S4x512x128_S4x512x512_2_2_1_1_0_0.lhsIdx j q 2).val = (q ⟨0, by decide⟩).val :=
  dot_S4x512x128_S4x512x128_S4x512x512_2_2_1_1_0_0.lhsIdx_val_of_single rfl j q
theorem rhs_coord0 (j : S4x512x512.Idx) (q : dot_S4x512x128_S4x512x128_S4x512x512_2_2_1_1_0_0.contr.Idx) :
    (dot_S4x512x128_S4x512x128_S4x512x512_2_2_1_1_0_0.rhsIdx j q 0).val = (j 0).val := by
  unfold DotDims.rhsIdx
  rw [dif_pos (show (0 : Fin S4x512x128.rank) ∈ dot_S4x512x128_S4x512x128_S4x512x512_2_2_1_1_0_0.rhsBatch by decide)]
  rfl
theorem rhs_coord1 (j : S4x512x512.Idx) (q : dot_S4x512x128_S4x512x128_S4x512x512_2_2_1_1_0_0.contr.Idx) :
    (dot_S4x512x128_S4x512x128_S4x512x512_2_2_1_1_0_0.rhsIdx j q 1).val = (j 2).val := by
  unfold DotDims.rhsIdx
  rw [dif_neg (show ¬(1 : Fin S4x512x128.rank) ∈ dot_S4x512x128_S4x512x128_S4x512x512_2_2_1_1_0_0.rhsBatch by decide),
    dif_pos (show (1 : Fin S4x512x128.rank) ∈ dot_S4x512x128_S4x512x128_S4x512x512_2_2_1_1_0_0.rhsNonContracting by decide)]
  rfl
theorem rhs_coord2 (j : S4x512x512.Idx) (q : dot_S4x512x128_S4x512x128_S4x512x512_2_2_1_1_0_0.contr.Idx) :
    (dot_S4x512x128_S4x512x128_S4x512x512_2_2_1_1_0_0.rhsIdx j q 2).val = (q ⟨0, by decide⟩).val :=
  dot_S4x512x128_S4x512x128_S4x512x512_2_2_1_1_0_0.rhsIdx_val_of_single rfl j q

/-- The product of a `[4,512,128]` vector with itself into the zero splat: the inner products of the rows. -/
theorem product_apply {φ : FTy} (v : FVec Ideal S4x512x128 φ) (b : Fin 4) (c d : Fin 512) :
    matmul dot_S4x512x128_S4x512x128_S4x512x512_2_2_1_1_0_0 none v v (constant (F := Ideal) S4x512x512 .f32 0x00000000#32) (ix3 b c d)
      = ∑ l : Fin 128, v (ix3 b c l) * v (ix3 b d l) := by
  show FloatOps.matmul dot_S4x512x128_S4x512x128_S4x512x512_2_2_1_1_0_0 none v v (constant (F := Ideal) S4x512x512 .f32 0x00000000#32) (ix3 b c d) = _
  rw [Ideal.matmul_constant_zero_apply,
    ← Equiv.sum_comp (contrEquiv1 dot_S4x512x128_S4x512x128_S4x512x512_2_2_1_1_0_0 128 rfl rfl).symm]
  refine Finset.sum_congr rfl fun l _ => ?_
  have hl := contrEquiv1_symm_val dot_S4x512x128_S4x512x128_S4x512x512_2_2_1_1_0_0 128 rfl rfl l
  have el : dot_S4x512x128_S4x512x128_S4x512x512_2_2_1_1_0_0.lhsIdx (ix3 b c d) ((contrEquiv1 dot_S4x512x128_S4x512x128_S4x512x512_2_2_1_1_0_0 128 rfl rfl).symm l) = ix3 b c l :=
    funext fun a => Fin.ext (by
      match a with
      | ⟨0, _⟩ => exact lhs_coord0 _ _
      | ⟨1, _⟩ => exact lhs_coord1 _ _
      | ⟨2, _⟩ => exact (lhs_coord2 _ _).trans hl)
  have er : dot_S4x512x128_S4x512x128_S4x512x512_2_2_1_1_0_0.rhsIdx (ix3 b c d) ((contrEquiv1 dot_S4x512x128_S4x512x128_S4x512x512_2_2_1_1_0_0 128 rfl rfl).symm l) = ix3 b d l :=
    funext fun a => Fin.ext (by
      match a with
      | ⟨0, _⟩ => exact rhs_coord0 _ _
      | ⟨1, _⟩ => exact rhs_coord1 _ _
      | ⟨2, _⟩ => exact (rhs_coord2 _ _).trans hl)
  rw [el, er]

end Product

/-! ## Pointwise operations the index lemmas of the library do not name -/

section Pointwise
variable {s : Shape} {φ : FTy}

theorem sqrt_apply (a : FVec Ideal s φ) (i : s.Idx) : sqrt a i = Ideal.sqrt (a i) := rfl
theorem absf_apply (a : FVec Ideal s φ) (i : s.Idx) : absf a i = max (a i) (-(a i)) := rfl
theorem cmpi_apply {w : Nat} (p : CmpIPredicate) (x y : IVec s w) (i : s.Idx) : cmpi p x y i = IntOp.cmpi p (x i) (y i) := rfl
theorem ofBits_scalar (w : BitVec (FTy.bits .f32)) : Scalar.ofBits (F := Ideal) .f32 w = Ideal.ofBits .f32 w := rfl

end Pointwise

/-! ## The masks and the masked rows -/

section Masks

/-- The column mask's identity reshape is the mask. -/
theorem pay2_eq (x2 : Vec Ideal S4x512x1 .f32) : k0_pay2 x2 = x2 := by
  unfold k0_pay2
  exact shapeCast_self _ _

/-- The pair mask: the column mask at the row times the row mask at the column. -/
theorem pay3_apply (x2 : Vec Ideal S4x512x1 .f32) (x3 : Vec Ideal S4x1x512 .f32) (b : Fin 4) (c d : Fin 512) :
    k0_pay3 x2 x3 (ix3 b c d) = x2 (ix3 b c (0 : Fin 1)) * x3 (ix3 b (0 : Fin 1) d) := by
  unfold k0_pay3
  simp only [mulf_apply, bcast_col, bcast_row, pay2_eq, shapeCast_self]

/-- A masked row: the block's entry times the row's mask entry. -/
theorem pay4_apply (x2 : Vec Ideal S4x512x1 .f32) (x : Vec Ideal S4x512x128 .f32) (b : Fin 4) (c : Fin 512) (l : Fin 128) :
    k0_pay4 x2 x (ix3 b c l) = x (ix3 b c l) * x2 (ix3 b c (0 : Fin 1)) := by
  unfold k0_pay4
  simp only [mulf_apply, bcast_lane, pay2_eq]

/-- The off-diagonal matrix: the comparison of the two coordinates, as a number. -/
theorem pay5_apply (c d : Fin 512) : k0_pay5 (F := Ideal) (ix2 c d) = Cert.RelDist.offd c d := by
  unfold k0_pay5 Cert.RelDist.offd Cert.RelDist.bit
  simp only [sitofp_apply, extui_apply, cmpi_apply]
  have e0 : iota .tc S512x512 32 [0] iota_S512x512_d0_w32 (ix2 c d) = BitVec.ofNat 32 c.val :=
    iota_single_apply .tc S512x512 32 0 _ (ix2 c d)
  have e1 : iota .tc S512x512 32 [1] iota_S512x512_d1_w32 (ix2 c d) = BitVec.ofNat 32 d.val :=
    iota_single_apply .tc S512x512 32 1 _ (ix2 c d)
  rw [e0, e1]

end Masks

/-! ## The distance matrix of a block

For a block `x` (student or teacher) with the column mask `x2`: the squared norms of the masked rows as a column and as a
row, the rows cast for the product, and from them the distance matrix. -/

section Distance

/-- The squared norms of the masked rows, as a column. -/
theorem pay7_apply (x2 : Vec Ideal S4x512x1 .f32) (x : Vec Ideal S4x512x128 .f32) (b : Fin 4) (c : Fin 512) (u : Fin 1) :
    k0_pay7 x2 x (ix3 b c u)
      = Cert.RelDist.sqn (Cert.RelDist.masked (fun (c : Fin 512) (l : Fin 128) => x (ix3 b c l)) (fun c : Fin 512 => x2 (ix3 b c (0 : Fin 1)))) c := by
  unfold k0_pay7
  rw [cast_col, sum_feat]
  unfold Cert.RelDist.sqn Cert.RelDist.masked
  refine Finset.sum_congr rfl fun l _ => ?_
  rw [mulf_apply, pay4_apply]

/-- The same as a row. -/
theorem pay8_apply (x2 : Vec Ideal S4x512x1 .f32) (x : Vec Ideal S4x512x128 .f32) (b : Fin 4) (u : Fin 1) (d : Fin 512) :
    k0_pay8 x2 x (ix3 b u d) = k0_pay7 x2 x (ix3 b d u) := by
  unfold k0_pay8
  exact transpose_col _ b u d

/-- The rows cast for the product are the masked rows. -/
theorem pay9_apply (x2 : Vec Ideal S4x512x1 .f32) (x : Vec Ideal S4x512x128 .f32) (b : Fin 4) (c : Fin 512) (l : Fin 128) :
    k0_pay9 x2 x (ix3 b c l)
      = Cert.RelDist.masked (fun (c : Fin 512) (l : Fin 128) => x (ix3 b c l)) (fun c : Fin 512 => x2 (ix3 b c (0 : Fin 1))) c l := by
  unfold k0_pay9 Cert.RelDist.masked
  rw [truncf_apply, pay4_apply]

/-- The distance matrix from its pieces: squared norms as a column `p` and as a row `q`, the rows `r` for the product,
    the off-diagonal matrix `o`. -/
theorem pay10_apply (o : FVec Ideal S512x512 .f32) (p : FVec Ideal S4x512x1 .f32) (q : FVec Ideal S4x1x512 .f32)
    (r : FVec Ideal S4x512x128 .bf16) (b : Fin 4) (c d : Fin 512) :
    k0_pay10 o p q r (constant (F := Ideal) S4x512x512 .f32 0x00000000#32) (ix3 b c d)
      = Ideal.sqrt (max (p (ix3 b c (0 : Fin 1)) + q (ix3 b (0 : Fin 1) d)
            - Cert.RelDist.two * ∑ l : Fin 128, r (ix3 b c l) * r (ix3 b d l)) Cert.RelDist.eps) * o (ix2 c d) := by
  unfold k0_pay10
  simp only [mulf_apply, sqrt_apply, maximumf_apply, subf_apply, addf_apply, broadcast_apply, bcast_col, bcast_row,
    bcast_sample, cast_lead, product_apply, ofBits_scalar]

/-- The distance matrix of a block is the specification's, of the block's masked rows. -/
theorem dist_apply (x2 : Vec Ideal S4x512x1 .f32) (x : Vec Ideal S4x512x128 .f32) (b : Fin 4) (c d : Fin 512) :
    k0_pay10 (k0_pay5 (F := Ideal)) (k0_pay7 x2 x) (k0_pay8 x2 x) (k0_pay9 x2 x) (constant (F := Ideal) S4x512x512 .f32 0x00000000#32) (ix3 b c d)
      = Cert.RelDist.dist (Cert.RelDist.masked (fun (c : Fin 512) (l : Fin 128) => x (ix3 b c l)) (fun c : Fin 512 => x2 (ix3 b c (0 : Fin 1)))) c d := by
  rw [pay10_apply, pay8_apply, pay7_apply, pay7_apply, pay5_apply]
  unfold Cert.RelDist.dist Cert.RelDist.gram
  simp only [pay9_apply]

/-- The student's distance matrix is built from the same pieces as the teacher's. -/
theorem pay6_eq (x2 : Vec Ideal S4x512x1 .f32) (x : Vec Ideal S4x512x128 .f32) :
    k0_pay6 x2 x = k0_pay10 (k0_pay5 (F := Ideal)) (k0_pay7 x2 x) (k0_pay8 x2 x) (k0_pay9 x2 x) (constant (F := Ideal) S4x512x512 .f32 0x00000000#32) := rfl

end Distance

/-! ## The counted pairs, the totals and the means -/

section Means

/-- The teacher's counted pairs: the pair mask times the indicator of a positive distance. -/
theorem pay11_apply (v6 : FVec Ideal S4x512x512 .f32) (o : FVec Ideal S512x512 .f32) (p : FVec Ideal S4x512x1 .f32)
    (q : FVec Ideal S4x1x512 .f32) (r : FVec Ideal S4x512x128 .bf16) (b : Fin 4) (c d : Fin 512) :
    k0_pay11 v6 o p q r (constant (F := Ideal) S4x512x512 .f32 0x00000000#32) (ix3 b c d)
      = v6 (ix3 b c d) * Cert.RelDist.ind (k0_pay10 o p q r (constant (F := Ideal) S4x512x512 .f32 0x00000000#32) (ix3 b c d)) := by
  unfold k0_pay11 Cert.RelDist.ind Cert.RelDist.bit
  simp only [mulf_apply, sitofp_apply, extui_apply, cmpf_apply, broadcast_apply, ofBits_scalar, Ideal.cmpf_def]

/-- The teacher's total of distance times counted pair. -/
theorem pay12_apply (v6 : FVec Ideal S4x512x512 .f32) (o : FVec Ideal S512x512 .f32) (p : FVec Ideal S4x512x1 .f32)
    (q : FVec Ideal S4x1x512 .f32) (r : FVec Ideal S4x512x128 .bf16) (b : Fin 4)
    (mk : Fin 512 → EReal) (D : Fin 512 → Fin 512 → EReal)
    (hP : ∀ c d, v6 (ix3 b c d) = Cert.RelDist.pairm mk c d)
    (hD : ∀ c d, k0_pay10 o p q r (constant (F := Ideal) S4x512x512 .f32 0x00000000#32) (ix3 b c d) = D c d) :
    k0_pay12 v6 o p q r (constant (F := Ideal) S4x512x512 .f32 0x00000000#32) (ix3 b (0 : Fin 1) (0 : Fin 1))
      = Cert.RelDist.tot (fun c d => D c d * Cert.RelDist.pos mk D c d) := by
  unfold k0_pay12
  rw [total_apply]
  unfold Cert.RelDist.tot Cert.RelDist.pos
  refine Finset.sum_congr rfl fun c _ => Finset.sum_congr rfl fun d _ => ?_
  rw [mulf_apply, pay11_apply, hP, hD]

/-- The teacher's number of counted pairs, read as at least one. -/
theorem pay14_apply (v6 : FVec Ideal S4x512x512 .f32) (o : FVec Ideal S512x512 .f32) (p : FVec Ideal S4x512x1 .f32)
    (q : FVec Ideal S4x1x512 .f32) (r : FVec Ideal S4x512x128 .bf16) (b : Fin 4)
    (mk : Fin 512 → EReal) (D : Fin 512 → Fin 512 → EReal)
    (hP : ∀ c d, v6 (ix3 b c d) = Cert.RelDist.pairm mk c d)
    (hD : ∀ c d, k0_pay10 o p q r (constant (F := Ideal) S4x512x512 .f32 0x00000000#32) (ix3 b c d) = D c d) :
    k0_pay14 v6 o p q r (constant (F := Ideal) S4x512x512 .f32 0x00000000#32) (ix3 b (0 : Fin 1) (0 : Fin 1))
      = max (Cert.RelDist.tot (Cert.RelDist.pos mk D)) Cert.RelDist.one := by
  unfold k0_pay14
  rw [maximumf_apply, total_apply, broadcast_apply, ofBits_scalar]
  unfold Cert.RelDist.tot Cert.RelDist.pos
  refine congrArg (fun z => max z Cert.RelDist.one) ?_
  refine Finset.sum_congr rfl fun c _ => Finset.sum_congr rfl fun d _ => ?_
  rw [pay11_apply, hP, hD]

/-- The student's mean distance over its counted pairs. -/
theorem pay13_apply (v6 v35 : FVec Ideal S4x512x512 .f32) (b : Fin 4)
    (mk : Fin 512 → EReal) (D : Fin 512 → Fin 512 → EReal)
    (hP : ∀ c d, v6 (ix3 b c d) = Cert.RelDist.pairm mk c d)
    (hD : ∀ c d, v35 (ix3 b c d) = D c d) :
    k0_pay13 v6 v35 (ix3 b (0 : Fin 1) (0 : Fin 1)) = Cert.RelDist.mean mk D := by
  unfold k0_pay13
  rw [divf_apply, maximumf_apply, total_apply, total_apply, broadcast_apply, ofBits_scalar]
  unfold Cert.RelDist.mean Cert.RelDist.tot Cert.RelDist.pos Cert.RelDist.ind Cert.RelDist.bit
  simp only [mulf_apply, sitofp_apply, extui_apply, cmpf_apply, broadcast_apply, ofBits_scalar, Ideal.cmpf_def, hP, hD]

end Means

/-! ## The stored value -/

section StoredPayload

/-- The stored payload at a sample, from what its operands are there: the mask `mk`, the pair mask, the two distance
    matrices `Ds` and `Dt`, the student's mean, and the teacher's two totals. -/
theorem pay1_apply (v1 : FVec Ideal S4x512x1 .f32) (v6 v35 v53 : FVec Ideal S4x512x512 .f32)
    (v77 v84 v86 : FVec Ideal S4x1x1 .f32) (b : Fin 4)
    (mk : Fin 512 → EReal) (Ds Dt : Fin 512 → Fin 512 → EReal)
    (h1 : ∀ c, v1 (ix3 b c (0 : Fin 1)) = mk c)
    (hP : ∀ c d, v6 (ix3 b c d) = Cert.RelDist.pairm mk c d)
    (hs : ∀ c d, v35 (ix3 b c d) = Ds c d)
    (ht : ∀ c d, v53 (ix3 b c d) = Dt c d)
    (h77 : v77 (ix3 b (0 : Fin 1) (0 : Fin 1)) = Cert.RelDist.tot (fun c d => Dt c d * Cert.RelDist.pos mk Dt c d))
    (h84 : v84 (ix3 b (0 : Fin 1) (0 : Fin 1)) = Cert.RelDist.mean mk Ds)
    (h86 : v86 (ix3 b (0 : Fin 1) (0 : Fin 1)) = max (Cert.RelDist.tot (Cert.RelDist.pos mk Dt)) Cert.RelDist.one) :
    k0_pay1 v1 v6 v35 v53 v77 v84 v86 (ix3 b (0 : Fin 1) (0 : Fin 1))
      = Scalar.select (Ideal.cmp .ogt (Cert.RelDist.cnt mk) Cert.RelDist.one)
          (Ideal.div (Cert.RelDist.tot fun c d => Cert.RelDist.huber (Cert.RelDist.ndiff mk Ds Dt c d) * Cert.RelDist.pairm mk c d)
            (max (Cert.RelDist.cnt mk * Cert.RelDist.cnt mk) Cert.RelDist.one))
          Cert.RelDist.zero := by
  unfold k0_pay1
  rw [select_apply, cmpf_apply, divf_apply, maximumf_apply, mulf_apply, total_apply, count_apply]
  unfold Cert.RelDist.cnt Cert.RelDist.tot Cert.RelDist.huber Cert.RelDist.ndiff Cert.RelDist.mean
  simp only [mulf_apply, subf_apply, divf_apply, absf_apply, select_apply, cmpf_apply, broadcast_apply, bcast_one,
    ofBits_scalar, Ideal.cmpf_def, h1, hP, hs, ht, h77, h84, h86]
  rfl

end StoredPayload

/-- What the body stores, as a function of the four loaded blocks (the stored payload over the payloads it reads). -/
def stored (x0 x1 : Vec Ideal S4x512x128 .f32) (x2 : Vec Ideal S4x512x1 .f32) (x3 : Vec Ideal S4x1x512 .f32) :
    FVec Ideal S4x1x1 .f32 :=
  k0_pay1 (k0_pay2 x2) (k0_pay3 x2 x3) (k0_pay6 x2 x0) (k0_pay10 (k0_pay5 (F := Ideal)) (k0_pay7 x2 x1) (k0_pay8 x2 x1) (k0_pay9 x2 x1) (constant S4x512x512 .f32 0x00000000#32)) (k0_pay12 (k0_pay3 x2 x3) (k0_pay5 (F := Ideal)) (k0_pay7 x2 x1) (k0_pay8 x2 x1) (k0_pay9 x2 x1) (constant S4x512x512 .f32 0x00000000#32)) (k0_pay13 (k0_pay3 x2 x3) (k0_pay6 x2 x0)) (k0_pay14 (k0_pay3 x2 x3) (k0_pay5 (F := Ideal)) (k0_pay7 x2 x1) (k0_pay8 x2 x1) (k0_pay9 x2 x1) (constant S4x512x512 .f32 0x00000000#32))

/-- At sample `b` of the block the stored vector is the sample's loss. -/
theorem stored_apply (x0 x1 : Vec Ideal S4x512x128 .f32) (x2 : Vec Ideal S4x512x1 .f32) (x3 : Vec Ideal S4x1x512 .f32)
    (hrow : ∀ (b : Fin 4) (d : Fin 512), x3 (ix3 b (0 : Fin 1) d) = x2 (ix3 b d (0 : Fin 1))) (b : Fin 4) :
    stored x0 x1 x2 x3 (ix3 b (0 : Fin 1) (0 : Fin 1))
      = Cert.RelDist.loss (fun c l => x0 (ix3 b c l)) (fun c l => x1 (ix3 b c l)) (fun c => x2 (ix3 b c (0 : Fin 1))) := by
  have hP : ∀ c d : Fin 512, k0_pay3 x2 x3 (ix3 b c d) = Cert.RelDist.pairm (fun c : Fin 512 => x2 (ix3 b c (0 : Fin 1))) c d := fun c d => by
    rw [pay3_apply, hrow]; rfl
  have hs : ∀ c d : Fin 512, k0_pay6 x2 x0 (ix3 b c d)
      = Cert.RelDist.dist (Cert.RelDist.masked (fun (c : Fin 512) (l : Fin 128) => x0 (ix3 b c l)) (fun c : Fin 512 => x2 (ix3 b c (0 : Fin 1)))) c d := fun c d => by
    rw [pay6_eq]; exact dist_apply x2 x0 b c d
  have ht := dist_apply x2 x1 b
  unfold stored Cert.RelDist.loss
  exact pay1_apply _ _ _ _ _ _ _ b (fun c : Fin 512 => x2 (ix3 b c (0 : Fin 1))) _ _
    (fun c => by rw [pay2_eq]) hP hs ht
    (pay12_apply _ _ _ _ _ b _ _ hP ht) (pay13_apply _ _ b _ _ hP hs) (pay14_apply _ _ _ _ _ b _ _ hP ht)

end Cert.KernelIdeal.BodyValue

end
-- ==== Proof.EntryArrays.lean ====
/-
  What the region finds in the two mask arrays.

  Before the region the host turns the integer mask into numbers and lays it out twice: as a column `[128, 512, 1]` and
  as a row `[128, 1, 512]`. Both are reshapes of the same `[128, 512]` array, so entry `(n, r, 0)` of the column and entry
  `(n, 0, r)` of the row are the mask's entry `(n, r)` read as a number: the three positions are the same row-major position.
-/
import proofs.«146603_j2585570312402_1_alg».proof.Proof.Gen.KernelIdeal.Frame
import Idealize.ShloMosaic.Lib.Pipeline.Value
import Idealize.ShloMosaic.Lib.StableHlo.Run
import Idealize.ShloMosaic.Lib.ValueIdx

noncomputable section

namespace Cert.KernelIdeal.Entry

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- The mask as numbers, as the host computes it from the integer argument. -/
abbrev maskNum (c : Dev nD) : S128x512.Idx → EReal := sitofp (F := Ideal) .f32 (m ((c : Thread nD τ).loc main_arg2))

/-- The column array at region entry is the reshape of the mask's numbers. -/
theorem col_eq (c : Dev nD) :
    (V m c main_v1 : S128x512x1.Idx → EReal) = shapeCast S128x512x1 (maskNum m c) shapeCasts_S128x512_S128x512x1 := by
  show StableHlo.after hostOps0 (fun b => m (c, b)) (Proc.devRef .tc main_v1) = _
  after_results
  rfl

/-- The row array at region entry is the reshape of the mask's numbers. -/
theorem row_eq (c : Dev nD) :
    (V m c main_v2 : S128x1x512.Idx → EReal) = shapeCast S128x1x512 (maskNum m c) shapeCasts_S128x512_S128x1x512 := by
  show StableHlo.after hostOps0 (fun b => m (c, b)) (Proc.devRef .tc main_v2) = _
  after_results
  rfl

/-- Entry `(n, r, 0)` of the column is the mask's entry `(n, r)` as a number. -/
theorem col_apply (c : Dev nD) (n : Fin 128) (r : Fin 512) :
    V m c main_v1 (ix3 n r (0 : Fin 1)) = FloatOps.sitofp (F := Ideal) .f32 (m ((c : Thread nD τ).loc main_arg2) (ix2 n r)) := by
  refine (congrFun (col_eq m c) (ix3 n r (0 : Fin 1))).trans ?_
  refine (shapeCast_apply (maskNum m c) shapeCasts_S128x512_S128x512x1 (ix3 n r (0 : Fin 1)) (ix2 n r) ?_).trans rfl
  rw [Shape.rowMajor_val_two, Shape.rowMajor_val_three]
  show n.val * 512 + r.val = (n.val * 512 + r.val) * 1 + 0
  omega

/-- Entry `(n, 0, r)` of the row is the mask's entry `(n, r)` as a number. -/
theorem row_apply (c : Dev nD) (n : Fin 128) (r : Fin 512) :
    V m c main_v2 (ix3 n (0 : Fin 1) r) = FloatOps.sitofp (F := Ideal) .f32 (m ((c : Thread nD τ).loc main_arg2) (ix2 n r)) := by
  refine (congrFun (row_eq m c) (ix3 n (0 : Fin 1) r)).trans ?_
  refine (shapeCast_apply (maskNum m c) shapeCasts_S128x512_S128x1x512 (ix3 n (0 : Fin 1) r) (ix2 n r) ?_).trans rfl
  rw [Shape.rowMajor_val_two, Shape.rowMajor_val_three]
  show n.val * 512 + r.val = (n.val * 1 + 0) * 512 + r.val
  omega

end Cert.KernelIdeal.Entry

end
-- ==== Proof.Blocks.lean ====
/-
  From blocks to the array: the kernel's output array after the region.

  Grid point `t` (of 32) stages samples `4t … 4t+3`: block `t` of every window starts at row `4t` of the leading axis and
  at `0` on the other two, so coordinate `(b, r, l)` of a block is entry `(4t + b, r, l)` of its array. The body's stored
  vector at sample `b` is that sample's loss (Proof/BodyValue.lean) of the blocks' rows, hence of rows `4t + b` of the
  three argument arrays: the two embedding windows are the arguments themselves, and the two mask windows hold the integer
  mask read as numbers (Proof/EntryArrays.lean), the row form being the column form laid along the last axis. So point `t`
  writes back block `t` of ONE array, `lossArr`: entry `(n, 0, 0)` the loss of sample `n`. Every index `(n, 0, 0)` lies in the
  block of point `n / 4`, so the output array ends as `lossArr`.
-/
import proofs.«146603_j2585570312402_1_alg».proof.Proof.Gen.KernelIdeal.Frame
import proofs.«146603_j2585570312402_1_alg».proof.Proof.BodyValue
import proofs.«146603_j2585570312402_1_alg».proof.Proof.EntryArrays
import proofs.«146603_j2585570312402_1_alg».proof.Proof.RelDist
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

theorem hz3 : (![0, 0, 0] : Fin 3 → Nat) = fun _ => 0 := funext fun a => by fin_cases a <;> rfl

/-- Every window's block index at point `t` is `(t, 0, 0)` (decided over the 32 points). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

theorem point_lt (t : Fin cfg0.N) : t.val < 32 := lt_of_lt_of_eq t.isLt N_0

/-- The sample that point `t` holds at position `b` of its block. -/
def smp (t : Fin cfg0.N) (b : Fin 4) : Fin 128 := ⟨t.val * 4 + b.val, by have := point_lt t; have := b.isLt; omega⟩

/-- The loss array: entry `(n, 0, 0)` is sample `n`'s loss of the three argument arrays. -/
def lossArr (c : Dev nD) : S128x1x1.Idx → EReal := fun i =>
  Cert.RelDist.sample (m ((c : Thread nD τ).loc main_arg0)) (m ((c : Thread nD τ).loc main_arg1))
    (m ((c : Thread nD τ).loc main_arg2)) ⟨(i 0).val, (i 0).isLt⟩

/-! ## The input blocks, read where the arrays hold them -/

/-- The student block: coordinate `(b, r, l)` is the argument's entry `(4t + b, r, l)`. -/
theorem read0 (c : Dev nD) (t : Fin cfg0.N) (b : Fin 4) (r : Fin 512) (l : Fin 128) :
    iblk m c 0 t (ix3 b r l) = m ((c : Thread nD τ).loc main_arg0) (ix3 (smp t b) r l) := by
  obtain ⟨e0, e1, e2, -⟩ := idx_facts t
  show V m c main_arg0 (((cfg0.win 0).blk t).view.emb (ix3 b r l)) = _
  rw [V_main_arg0]
  refine congrArg _ (funext fun a => Fin.ext ?_)
  match a with
  | ⟨0, _⟩ => show win0_0.index t (0 : Fin 3) * 4 + 1 * b.val = t.val * 4 + b.val; omega
  | ⟨1, _⟩ => show win0_0.index t (1 : Fin 3) * 512 + 1 * r.val = r.val; omega
  | ⟨2, _⟩ => show win0_0.index t (2 : Fin 3) * 128 + 1 * l.val = l.val; omega

/-- The teacher block likewise. -/
theorem read1 (c : Dev nD) (t : Fin cfg0.N) (b : Fin 4) (r : Fin 512) (l : Fin 128) :
    iblk m c 1 t (ix3 b r l) = m ((c : Thread nD τ).loc main_arg1) (ix3 (smp t b) r l) := by
  obtain ⟨-, -, -, e0, e1, e2, -⟩ := idx_facts t
  show V m c main_arg1 (((cfg0.win 1).blk t).view.emb (ix3 b r l)) = _
  rw [V_main_arg1]
  refine congrArg _ (funext fun a => Fin.ext ?_)
  match a with
  | ⟨0, _⟩ => show win0_1.index t (0 : Fin 3) * 4 + 1 * b.val = t.val * 4 + b.val; omega
  | ⟨1, _⟩ => show win0_1.index t (1 : Fin 3) * 512 + 1 * r.val = r.val; omega
  | ⟨2, _⟩ => show win0_1.index t (2 : Fin 3) * 128 + 1 * l.val = l.val; omega

/-- The mask's column block: coordinate `(b, r, 0)` is the mask's entry `(4t + b, r)` as a number. -/
theorem read2 (c : Dev nD) (t : Fin cfg0.N) (b : Fin 4) (r : Fin 512) :
    iblk m c 2 t (ix3 b r (0 : Fin 1))
      = FloatOps.sitofp (F := Ideal) .f32 (m ((c : Thread nD τ).loc main_arg2) (ix2 (smp t b) r)) := by
  obtain ⟨-, -, -, -, -, -, e0, e1, e2, -⟩ := idx_facts t
  show V m c main_v1 (((cfg0.win 2).blk t).view.emb (ix3 b r (0 : Fin 1))) = _
  have he : ((cfg0.win 2).blk t).view.emb (ix3 b r (0 : Fin 1)) = ix3 (smp t b) r (0 : Fin 1) := by
    funext a; apply Fin.ext
    match a with
    | ⟨0, _⟩ => show win0_2.index t (0 : Fin 3) * 4 + 1 * b.val = t.val * 4 + b.val; omega
    | ⟨1, _⟩ => show win0_2.index t (1 : Fin 3) * 512 + 1 * r.val = r.val; omega
    | ⟨2, _⟩ => show win0_2.index t (2 : Fin 3) * 1 + 1 * 0 = 0; omega
  rw [he]
  exact Entry.col_apply m c (smp t b) r

/-- The mask's row block: coordinate `(b, 0, r)` is the mask's entry `(4t + b, r)` as a number. -/
theorem read3 (c : Dev nD) (t : Fin cfg0.N) (b : Fin 4) (r : Fin 512) :
    iblk m c 3 t (ix3 b (0 : Fin 1) r)
      = FloatOps.sitofp (F := Ideal) .f32 (m ((c : Thread nD τ).loc main_arg2) (ix2 (smp t b) r)) := by
  obtain ⟨-, -, -, -, -, -, -, -, -, e0, e1, e2, -⟩ := idx_facts t
  show V m c main_v2 (((cfg0.win 3).blk t).view.emb (ix3 b (0 : Fin 1) r)) = _
  have he : ((cfg0.win 3).blk t).view.emb (ix3 b (0 : Fin 1) r) = ix3 (smp t b) (0 : Fin 1) r := by
    funext a; apply Fin.ext
    match a with
    | ⟨0, _⟩ => show win0_3.index t (0 : Fin 3) * 4 + 1 * b.val = t.val * 4 + b.val; omega
    | ⟨1, _⟩ => show win0_3.index t (1 : Fin 3) * 1 + 1 * 0 = 0; omega
    | ⟨2, _⟩ => show win0_3.index t (2 : Fin 3) * 512 + 1 * r.val = r.val; omega
  rw [he]
  exact Entry.row_apply m c (smp t b) r

/-! ## What a point stores, and writes back -/

/-- The body's stored vector at sample `b` of point `t`'s blocks is the loss of sample `4t + b`. -/
theorem stored_blk (c : Dev nD) (t : Fin cfg0.N) (b : Fin 4) :
    BodyValue.stored (iblk m c 0 t) (iblk m c 1 t) (iblk m c 2 t) (iblk m c 3 t) (ix3 b (0 : Fin 1) (0 : Fin 1))
      = Cert.RelDist.sample (m ((c : Thread nD τ).loc main_arg0)) (m ((c : Thread nD τ).loc main_arg1))
          (m ((c : Thread nD τ).loc main_arg2)) (smp t b) := by
  refine (BodyValue.stored_apply (iblk m c 0 t) (iblk m c 1 t) (iblk m c 2 t) (iblk m c 3 t)
    (fun b' d => (read3 m c t b' d).trans (read2 m c t b' d).symm) b).trans ?_
  unfold Cert.RelDist.sample
  have h0 : (fun (r : Fin 512) (l : Fin 128) => iblk m c 0 t (ix3 b r l))
      = fun r l => m ((c : Thread nD τ).loc main_arg0) (ix3 (smp t b) r l) := funext fun r => funext fun l => read0 m c t b r l
  have h1 : (fun (r : Fin 512) (l : Fin 128) => iblk m c 1 t (ix3 b r l))
      = fun r l => m ((c : Thread nD τ).loc main_arg1) (ix3 (smp t b) r l) := funext fun r => funext fun l => read1 m c t b r l
  have h2 : (fun (r : Fin 512) => iblk m c 2 t (ix3 b r (0 : Fin 1)))
      = fun r => FloatOps.sitofp (F := Ideal) .f32 (m ((c : Thread nD τ).loc main_arg2) (ix2 (smp t b) r)) := funext fun r => read2 m c t b r
  rw [h0, h1, h2]

/-- The same at any index `z` of the `4 × 1 × 1` block: its two unit coordinates are zero. -/
theorem stored_at (c : Dev nD) (t : Fin cfg0.N) (z : S4x1x1.Idx) :
    BodyValue.stored (iblk m c 0 t) (iblk m c 1 t) (iblk m c 2 t) (iblk m c 3 t) z
      = Cert.RelDist.sample (m ((c : Thread nD τ).loc main_arg0)) (m ((c : Thread nD τ).loc main_arg1))
          (m ((c : Thread nD τ).loc main_arg2)) (smp t ⟨(z 0).val, (z 0).isLt⟩) := by
  have hz1 : (z 1).val = 0 := by have h : (z 1).val < 1 := (z 1).isLt; omega
  have hz2 : (z 2).val = 0 := by have h : (z 2).val < 1 := (z 2).isLt; omega
  have hz : z = ix3 (⟨(z 0).val, (z 0).isLt⟩ : Fin 4) (0 : Fin 1) (0 : Fin 1) := by
    funext a; apply Fin.ext
    match a with
    | ⟨0, _⟩ => rfl
    | ⟨1, _⟩ => exact hz1
    | ⟨2, _⟩ => exact hz2
  exact (congrArg (BodyValue.stored (iblk m c 0 t) (iblk m c 1 t) (iblk m c 2 t) (iblk m c 3 t)) hz).trans
    (stored_blk m c t ⟨(z 0).val, (z 0).isLt⟩)

/-- The buffer the body leaves is the stored vector: its one store covers the whole `4 × 1 × 1` buffer, and each load reads
    a whole block. -/
theorem out_eq (x0 x1 : Vec Ideal S4x512x128 .f32) (x2 : Vec Ideal S4x512x1 .f32) (x3 : Vec Ideal S4x1x512 .f32) :
    out0_4 x0 x1 x2 x3 = BodyValue.stored x0 x1 x2 x3 := by
  unfold out0_4
  rw [View.canon_unit_zero hz3]
  simp only [View.ld_unit_zero (S := S4x512x1) hz3, View.ld_unit_zero (S := S4x1x512) hz3, View.ld_unit_zero (S := S4x512x128) hz3]
  rfl

/-- WHAT POINT `t` WRITES BACK is block `t` of the loss array: the stored vector read through the block (whose coordinate
    `b` on the leading axis is the array's row `4t + b`). -/
theorem flushed_eq (c : Dev nD) (t : Fin cfg0.N) :
    (dats m 0 c).flushed 4 t = ((cfg0.win 4).blk t).view.read (Elt Ideal) (lossArr m c) := by
  show (cfg0.win 4).cut (grid0.coords t) ((dats m 0 c).after 4 t) = _
  rw [after0_4, out_eq]
  obtain ⟨-, -, -, -, -, -, -, -, -, -, -, -, e0, e1, e2⟩ := idx_facts t
  funext y
  rw [View.read_apply]
  refine (stored_at m c t ((cfg0.win 4).xinj (grid0.coords t) y)).trans ?_
  unfold lossArr
  refine congrArg _ (Fin.ext ?_)
  show t.val * 4 + (y 0).val = win0_4.index t (0 : Fin 3) * 4 + 1 * (y 0).val
  omega

/-! ## The cover, and the array after the region -/

/-- An index of the output array is in point `t`'s block iff each coordinate is in the block's range on its axis. -/
theorem mem_blk (t : Fin cfg0.N) (i : S128x1x1.Idx) :
    i ∈ ((cfg0.win 4).blk t).view.set ↔ ∀ a : Fin 3, win0_4.index t a * S4x1x1.size a ≤ (i a).val ∧ (i a).val < win0_4.index t a * S4x1x1.size a + S4x1x1.size a := by
  show i ∈ ((View.whole main_v3).slice (win0_4.rect t)).set ↔ _
  rw [View.set_slice_whole, Rect.mem_set_unit]
  exact Iff.rfl

/-- Every index of the output array lies in the block of the point that holds its sample. -/
theorem cover (i : S128x1x1.Idx) : ∃ t : Fin cfg0.N, (cfg0.win 4).flush t = true ∧ i ∈ ((cfg0.win 4).blk t).view.set := by
  have hi0 : (i 0).val < 128 := (i 0).isLt
  have hi1 : (i 1).val < 1 := (i 1).isLt
  have hi2 : (i 2).val < 1 := (i 2).isLt
  have hN : cfg0.N = 32 := N_0
  refine ⟨⟨(i 0).val / 4, by rw [hN]; omega⟩, flush0_4 _, ?_⟩
  obtain ⟨-, -, -, -, -, -, -, -, -, -, -, -, e0, e1, e2⟩ := idx_facts ⟨(i 0).val / 4, by rw [hN]; omega⟩
  rw [mem_blk]
  intro a
  match a with
  | ⟨0, _⟩ =>
    show win0_4.index ⟨(i 0).val / 4, _⟩ (0 : Fin 3) * 4 ≤ (i 0).val ∧ (i 0).val < win0_4.index ⟨(i 0).val / 4, _⟩ (0 : Fin 3) * 4 + 4
    rw [e0]; show (i 0).val / 4 * 4 ≤ (i 0).val ∧ (i 0).val < (i 0).val / 4 * 4 + 4; omega
  | ⟨1, _⟩ =>
    show win0_4.index ⟨(i 0).val / 4, _⟩ (1 : Fin 3) * 1 ≤ (i 1).val ∧ (i 1).val < win0_4.index ⟨(i 0).val / 4, _⟩ (1 : Fin 3) * 1 + 1
    rw [e1]; omega
  | ⟨2, _⟩ =>
    show win0_4.index ⟨(i 0).val / 4, _⟩ (2 : Fin 3) * 1 ≤ (i 2).val ∧ (i 2).val < win0_4.index ⟨(i 0).val / 4, _⟩ (2 : Fin 3) * 1 + 1
    rw [e2]; omega

/-- THE OUTPUT ARRAY after the region is the loss array. -/
theorem final (c : Dev nD) : (dats m 0 c).arrAt 4 cfg0.N = lossArr m c :=
  (dats m 0 c).arrAt_eq_of_cover 4 (lossArr m c) (fun t _ => flushed_eq m c t) cover

end Cert.KernelIdeal.Blocks

end
-- ==== Proof.KernelRun.lean ====
/-
  The kernel program's run, with its result named.

  After the region the host sums the `[128, 1, 1]` output array over all three axes from the zero word. The region leaves
  that array as the loss array (Proof/Blocks.lean): entry `(n, 0, 0)` the loss of sample `n`. Its indices are the samples
  (the two unit axes have one coordinate each), so the sum over every index is the sum over the 128 samples, and the
  program's result is `total` of the three argument arrays; the arguments end as launched.
-/
import proofs.«146603_j2585570312402_1_alg».proof.Proof.Blocks
import Idealize.ShloMosaic.Lib.StableHlo.Run
import Idealize.ShloMosaic.PureOps.Ideal.Laws

noncomputable section

namespace Cert.KernelIdeal.RunValue

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The indices of the `[128, 1, 1]` array are the samples. -/
def sampleEquiv : S128x1x1.Idx ≃ Fin 128 where
  toFun i := ⟨(i 0).val, (i 0).isLt⟩
  invFun n := ix3 n (0 : Fin 1) (0 : Fin 1)
  left_inv i := by
    funext a; apply Fin.ext
    match a with
    | ⟨0, _⟩ => rfl
    | ⟨1, _⟩ => show 0 = (i 1).val; have h : (i 1).val < 1 := (i 1).isLt; omega
    | ⟨2, _⟩ => show 0 = (i 2).val; have h : (i 2).val < 1 := (i 2).isLt; omega
  right_inv n := rfl

/-- The host's sum of the loss array over every axis, from the zero word, is the sum of the samples' losses. -/
theorem sum_lossArr (c : Dev nD) :
    Host.reduceAdd (F := Ideal) (Blocks.lossArr m c) (constant (F := Ideal) S_ .f32 0x00000000#32) reducesTo_S128x1x1_S_d0_1_2 h_S_
      = Cert.RelDist.total (m ((c : Thread nD τ).loc main_arg0)) (m ((c : Thread nD τ).loc main_arg1))
          (m ((c : Thread nD τ).loc main_arg2)) := by
  funext j
  simp only [Host.reduceAdd, Ideal.hostReduceAdd_def]
  rw [Ideal.hostReduceAdd_total reducesTo_S128x1x1_S_d0_1_2 (fun b => b.elim0) (Blocks.lossArr m c) _ j]
  unfold Cert.RelDist.total
  show Cert.RelDist.zero + ∑ i : S128x1x1.Idx, Blocks.lossArr m c i = Cert.RelDist.zero + _
  exact congrArg (Cert.RelDist.zero + ·) (Fintype.sum_equiv sampleEquiv _ _ fun i => rfl)

/-- What the host operations after the region leave in the result buffer. -/
theorem tail_eq (c : Dev nD) :
    Pipeline.afterTail₀ cfgs (dats m) 0 (V0 m) [hostOps1] c main_v4
      = Cert.RelDist.total (m ((c : Thread nD τ).loc main_arg0)) (m ((c : Thread nD τ).loc main_arg1))
          (m ((c : Thread nD τ).loc main_arg2)) := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v3)
      = Blocks.lossArr m c :=
    (Pipeline.withArrays_arr spec0 launch0.win.arr_inj c _ _ 4).trans (Blocks.final m c)
  rw [e]
  exact sum_lossArr m c

/-- Every weakly fair execution of the kernel program terminates with its result at `total` of the argument arrays and the
    arguments as launched. -/
theorem run : θ_run (defs (F := Ideal)) (onTc (τ := τ) (main (F := Ideal))) ⟨m, fun _ => 0, ρ⟩ fun r => ∀ c : Dev nD,
      r.2.mem ((c.tc : Thread nD τ).loc main_v4)
        = Cert.RelDist.total (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
      ⟨((h c).2 main_v4 (Pipeline.mem_restRefs_of main_v4 (by decide) (by decide))).trans (tail_eq m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c))),
       ((h c).2 main_arg2 (Pipeline.mem_restRefs_of main_arg2 (by decide) (by decide))).trans (W_main_arg2 m (dats m) c)⟩)
    (run_main m ρ)

end Cert.KernelIdeal.RunValue

end
-- ==== Proof.RefValue.lean ====
/-
  The reference program's result is the sum of the samples' losses.

  Read one operation at a time (Proof/RefRead.lean), the reference's per-sample vector at sample `n` is that sample's
  loss (Proof/RelDist.lean) of the sample's rows of the three arguments, and its one result is the sum of the 128 of them.
  Where the reference spells a step otherwise than the loss does — the clamp's operands in the other order, the off-diagonal
  factor as one minus the diagonal's indicator, a pair sum over both axes at once, a one-bit word read unsigned — the two
  agree on the extended reals.
-/
import proofs.«146603_j2585570312402_1_alg».proof.Proof.RefRead
import proofs.«146603_j2585570312402_1_alg».proof.Proof.RelDist
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefValue

open Cert.ReferenceIdeal Cert.ReferenceIdeal.ReadP Idealize.ShloMosaic Idealize.ShloMosaic.ValueIdx
open Cert.ReferenceIdeal.Facts₀

/-! ## Words as numbers -/

/-- A one-bit word read unsigned is the word read as a number. -/
theorem uitofp_bit (b : BitVec 1) : FloatOps.uitofp (F := Ideal) .f32 b = Cert.RelDist.bit b := by
  rcases BitVec.eq_zero_or_eq_one b with h | h <;> subst h
  · show (((0#1).toNat : ℝ) : EReal) = ((((0#1).setWidth 32).toInt : ℝ) : EReal)
    norm_num
  · show (((1#1).toNat : ℝ) : EReal) = ((((1#1).setWidth 32).toInt : ℝ) : EReal)
    norm_num

/-- The word of one is the extended real one. -/
theorem one_word : Ideal.ofBits .f32 0x3F800000#32 = (1 : EReal) := IdealRules.sign_bit.ideal_onePat .f32

/-- The bit zero is the number zero. -/
theorem bit_zero : Cert.RelDist.bit 0#1 = 0 := by
  show ((((0#1).setWidth 32).toInt : ℝ) : EReal) = 0
  norm_num

/-- The bit one is the number one. -/
theorem bit_one : Cert.RelDist.bit 1#1 = 1 := by
  show ((((1#1).setWidth 32).toInt : ℝ) : EReal) = 1
  norm_num

/-- One minus the diagonal's indicator is the off-diagonal factor. -/
theorem offd_eq (c d : Fin 512) :
    Ideal.ofBits .f32 0x3F800000#32
        - FloatOps.uitofp (F := Ideal) .f32 (IntOp.cmpi .eq (IntOp.addi (BitVec.ofNat 32 c.val) 0#32) (BitVec.ofNat 32 d.val))
      = Cert.RelDist.offd c d := by
  rw [uitofp_bit, one_word]
  unfold Cert.RelDist.offd
  have hadd : IntOp.addi (BitVec.ofNat 32 c.val) 0#32 = BitVec.ofNat 32 c.val := by
    unfold IntOp.addi; exact BitVec.add_zero _
  rw [hadd]
  by_cases h : c = d
  · subst h
    have e1 : IntOp.cmpi .eq (BitVec.ofNat 32 c.val) (BitVec.ofNat 32 c.val) = 1#1 := by simp [IntOp.cmpi]
    have e2 : IntOp.cmpi .ne (BitVec.ofNat 32 c.val) (BitVec.ofNat 32 c.val) = 0#1 := by simp [IntOp.cmpi]
    rw [e1, e2, bit_one, bit_zero]
    rw [show (1 : EReal) = ((1 : ℝ) : EReal) from rfl, ← EReal.coe_sub]
    norm_num
  · have hne : BitVec.ofNat 32 c.val ≠ BitVec.ofNat 32 d.val := by
      intro e
      have e' := congrArg BitVec.toNat e
      simp only [BitVec.toNat_ofNat] at e'
      have hc := c.isLt
      have hd := d.isLt
      apply h; apply Fin.ext; omega
    have e1 : IntOp.cmpi .eq (BitVec.ofNat 32 c.val) (BitVec.ofNat 32 d.val) = 0#1 := by
      show BitVec.ofBool (BitVec.ofNat 32 c.val == BitVec.ofNat 32 d.val) = 0#1
      rw [beq_eq_false_iff_ne.2 hne]; rfl
    have e2 : IntOp.cmpi .ne (BitVec.ofNat 32 c.val) (BitVec.ofNat 32 d.val) = 1#1 := by
      show BitVec.ofBool (BitVec.ofNat 32 c.val != BitVec.ofNat 32 d.val) = 1#1
      rw [bne_iff_ne.2 hne]; rfl
    rw [e1, e2, bit_one, bit_zero, sub_zero]

/-! ## A sum over both row axes at once -/

/-- The host's sum of a 128 × 512 × 512 array over its two row axes, at sample `n`: the initial value plus the
    double sum over the rows. -/
theorem sum_rows (x : FVec Ideal S128x512x512 .f32) (init : FVec Ideal S_ .f32) (n : Fin 128) :
    Host.reduceAdd (F := Ideal) x init reducesTo_S128x512x512_S128_d1_2 h_S_ (ix1 n)
      = init ix0 + ∑ c : Fin 512, ∑ d : Fin 512, x (ix3 n c d) := by
  show Ideal.hostReduceAdd reducesTo_S128x512x512_S128_d1_2 x (init (Shape.Idx.first h_S_)) (ix1 n) = _
  unfold Ideal.hostReduceAdd
  rw [eq_ix0 (Shape.Idx.first h_S_)]
  refine congrArg (init ix0 + ·) ?_
  rw [← Fintype.sum_prod_type']
  refine Finset.sum_nbij' (fun i => (i 1, i 2)) (fun p => ix3 n p.1 p.2) ?_ ?_ ?_ ?_ ?_
  · intro i _; exact Finset.mem_univ _
  · intro p _
    refine Finset.mem_filter.2 ⟨Finset.mem_univ _, ?_⟩
    funext b
    match b with
    | ⟨0, _⟩ => exact Fin.ext (Shape.ReducesTo.drop_apply_val_of_eq reducesTo_S128x512x512_S128_d1_2 _ 0 0)
  · intro i hi
    have hj := (Finset.mem_filter.1 hi).2
    have h0 : (i 0).val = n.val := by
      have := congrArg (fun j : S128.Idx => (j 0).val) hj
      rw [← Shape.ReducesTo.drop_apply_val_of_eq reducesTo_S128x512x512_S128_d1_2 i 0 0]
      exact this
    funext a
    match a with
    | ⟨0, _⟩ => exact Fin.ext h0.symm
    | ⟨1, _⟩ => rfl
    | ⟨2, _⟩ => rfl
  · intro p _; rfl
  · intro i hi
    have hj := (Finset.mem_filter.1 hi).2
    have h0 : (i 0).val = n.val := by
      have := congrArg (fun j : S128.Idx => (j 0).val) hj
      rw [← Shape.ReducesTo.drop_apply_val_of_eq reducesTo_S128x512x512_S128_d1_2 i 0 0]
      exact this
    refine congrArg x ?_
    funext a
    match a with
    | ⟨0, _⟩ => exact Fin.ext h0
    | ⟨1, _⟩ => rfl
    | ⟨2, _⟩ => rfl

/-! ## The stages of the reference, read at sample `n` -/

local macro "idx_cases2" : tactic =>
  `(tactic| (funext a; match a with | ⟨0, _⟩ => rfl | ⟨1, _⟩ => rfl))
local macro "idx_cases3" : tactic =>
  `(tactic| (funext a; match a with | ⟨0, _⟩ => rfl | ⟨1, _⟩ => rfl | ⟨2, _⟩ => rfl))

/-- Sample `n`'s rows of an embedding. -/
def rows (x : (⟨S128x512x128, .f32⟩ : BufTy).Contents (Elt Ideal)) (n : Fin 128) : Fin 512 → Fin 128 → EReal :=
  fun c l => x (ix3 n c l)

/-- Sample `n`'s mask, as numbers. -/
def mkn (x2 : (⟨S128x512, .i32⟩ : BufTy).Contents (Elt Ideal)) (n : Fin 128) : Fin 512 → EReal :=
  fun c => FloatOps.sitofp (F := Ideal) .f32 (x2 (ix2 n c))

/-- Sample `n`'s masked rows of an embedding. -/
def erows (x : (⟨S128x512x128, .f32⟩ : BufTy).Contents (Elt Ideal)) (x2 : (⟨S128x512, .i32⟩ : BufTy).Contents (Elt Ideal))
    (n : Fin 128) : Fin 512 → Fin 128 → EReal :=
  Cert.RelDist.masked (rows x n) (mkn x2 n)

section Stages

variable (x0 x1 : (⟨S128x512x128, .f32⟩ : BufTy).Contents (Elt Ideal)) (x2 : (⟨S128x512, .i32⟩ : BufTy).Contents (Elt Ideal))
variable (n : Fin 128) (c d : Fin 512) (l : Fin 128)

/-- The mask as numbers. -/
theorem v0_at : val_main_v0 (F := Ideal) x2 (ix2 n c) = mkn x2 n c := rfl

/-- The pair mask. -/
theorem v11_at : val_main_v11 (F := Ideal) x2 (ix3 n c d) = Cert.RelDist.pairm (mkn x2 n) c d := by
  rw [val_main_v11_apply, val_main_v9_apply, val_main_v7_apply, val_main_v10_apply, val_main_v8_apply]
  rw [show idx_main_v7 (idx_main_v9 (ix3 n c d)) = ix2 n c by idx_cases2,
    show idx_main_v8 (idx_main_v10 (ix3 n c d)) = ix2 n d by idx_cases2]
  rfl

/-- The number of kept rows. -/
theorem v98_at : val_main_v98 (F := Ideal) x2 (ix1 n) = Cert.RelDist.cnt (mkn x2 n) := by
  rw [val_main_v98_apply, val_main_cst_19_apply]
  show Ideal.ofBits .f32 0x00000000#32 + _ = _
  rw [Ideal.ofBits_zero_f32, zero_add]
  unfold Cert.RelDist.cnt
  refine Finset.sum_congr rfl fun k _ => ?_
  rw [show idx_main_v98 (ix1 n) k = ix2 n k by idx_cases2]
  rfl

/-! ### The student's chain -/

/-- The masked student rows. -/
theorem v3_at : val_main_v3 (F := Ideal) x0 x2 (ix3 n c l) = erows x0 x2 n c l := by
  rw [val_main_v3_apply, val_main_v2_apply, val_main_v1_apply]
  rw [show idx_main_v1 (idx_main_v2 (ix3 n c l)) = ix2 n c by idx_cases2]
  rfl

/-- The squared norms of the masked student rows. -/
theorem v13_at : val_main_v13 (F := Ideal) x0 x2 (ix2 n c) = Cert.RelDist.sqn (erows x0 x2 n) c := by
  rw [val_main_v13_apply, val_main_cst_apply]
  show Ideal.ofBits .f32 0x00000000#32 + _ = _
  rw [Ideal.ofBits_zero_f32, zero_add]
  unfold Cert.RelDist.sqn
  refine Finset.sum_congr rfl fun k _ => ?_
  rw [show idx_main_v13 (ix2 n c) k = ix3 n c k by idx_cases3, val_main_v12_apply, v3_at]
  rfl

/-- The sum of the two rows' squared norms. -/
theorem v18_at : val_main_v18 (F := Ideal) x0 x2 (ix3 n c d)
    = Cert.RelDist.sqn (erows x0 x2 n) c + Cert.RelDist.sqn (erows x0 x2 n) d := by
  rw [val_main_v18_apply, val_main_v16_apply, val_main_v14_apply, val_main_v17_apply, val_main_v15_apply]
  rw [show idx_main_v14 (idx_main_v16 (ix3 n c d)) = ix2 n c by idx_cases2,
    show idx_main_v15 (idx_main_v17 (ix3 n c d)) = ix2 n d by idx_cases2, v13_at, v13_at]
  rfl

/-- The inner products of the masked student rows. -/
theorem v20_at : val_main_v20 (F := Ideal) x0 x2 (ix3 n c d) = Cert.RelDist.gram (erows x0 x2 n) c d := by
  rw [val_main_v20_apply]
  unfold Cert.RelDist.gram
  refine Finset.sum_congr rfl fun k _ => ?_
  rw [val_main_v19_apply,
    show lidx_main_v20 (ix3 n c d) k = ix3 n c k by idx_cases3,
    show idx_main_v19 (ridx_main_v20 (ix3 n c d) k) = ix3 n d k by idx_cases3, v3_at, v3_at]

/-- The clamped squared distance. -/
theorem v24_at : val_main_v24 (F := Ideal) x0 x2 (ix3 n c d)
    = max (Cert.RelDist.sqn (erows x0 x2 n) c + Cert.RelDist.sqn (erows x0 x2 n) d
        - Cert.RelDist.two * Cert.RelDist.gram (erows x0 x2 n) c d) Cert.RelDist.eps := by
  rw [val_main_v24_apply, val_main_call0_v1_apply, val_main_call0_v0_apply, val_main_cst_1_apply,
    val_main_v23_apply, val_main_v22_apply, val_main_v21_apply, val_main_cst_0_apply, v18_at, v20_at]
  exact max_comm _ _

/-- The off-diagonal factor. -/
theorem v35_at : val_main_v35 (F := Ideal) (ix3 n c d) = Cert.RelDist.offd c d := by
  rw [val_main_v35_apply, val_main_v34_apply]
  rw [show idx_main_v34 (idx_main_v35 (ix3 n c d)) = ix2 c d by idx_cases2]
  rw [val_main_v33_apply, val_main_v32_apply, val_main_cst_2_apply, val_main_v31_apply, val_main_v30_apply,
    val_main_v29_apply, val_main_v26_apply, val_main_v28_apply, val_main_c_apply, val_main_v27_apply]
  exact offd_eq c d

/-- The student's distance matrix. -/
theorem v36_at : val_main_v36 (F := Ideal) x0 x2 (ix3 n c d) = Cert.RelDist.dist (erows x0 x2 n) c d := by
  rw [val_main_v36_apply, val_main_v25_apply, v24_at, v35_at]
  rfl

/-- The student's counted pairs. -/
theorem v65_at : val_main_v65 (F := Ideal) x0 x2 (ix3 n c d)
    = Cert.RelDist.pos (mkn x2 n) (Cert.RelDist.dist (erows x0 x2 n)) c d := by
  rw [val_main_v65_apply, v11_at, val_main_v64_apply, val_main_v63_apply, v36_at, val_main_v62_apply,
    val_main_cst_8_apply, uitofp_bit]
  rfl

/-- A distance times its pair's count. -/
theorem v70_at : val_main_v70 (F := Ideal) x0 x2 (ix3 n c d)
    = Cert.RelDist.dist (erows x0 x2 n) c d * Cert.RelDist.pos (mkn x2 n) (Cert.RelDist.dist (erows x0 x2 n)) c d := by
  rw [val_main_v70_apply, v36_at, v65_at]
  rfl

/-- The student's mean distance over the counted pairs. -/
theorem v75_at : val_main_v75 (F := Ideal) x0 x2 (ix1 n)
    = Cert.RelDist.mean (mkn x2 n) (Cert.RelDist.dist (erows x0 x2 n)) := by
  rw [val_main_v75_apply, val_main_v74_apply, val_main_v73_apply, val_main_cst_12_apply]
  unfold val_main_v71 val_main_v72
  rw [sum_rows, sum_rows, val_main_cst_10_apply, val_main_cst_11_apply]
  show Ideal.div (Ideal.ofBits .f32 0x00000000#32 + _) (max (Ideal.ofBits .f32 0x00000000#32 + _) _) = _
  rw [Ideal.ofBits_zero_f32, zero_add, zero_add]
  unfold Cert.RelDist.mean Cert.RelDist.tot
  rw [Finset.sum_congr rfl fun c _ => Finset.sum_congr rfl fun d _ => v70_at x0 x2 n c d,
    Finset.sum_congr rfl fun c _ => Finset.sum_congr rfl fun d _ => v65_at x0 x2 n c d]
  rfl

/-- The student's mean-normalised distance. -/
theorem v84_at : val_main_v84 (F := Ideal) x0 x2 (ix3 n c d)
    = Ideal.div (Cert.RelDist.dist (erows x0 x2 n) c d) (Cert.RelDist.mean (mkn x2 n) (Cert.RelDist.dist (erows x0 x2 n))) := by
  rw [val_main_v84_apply, v36_at, val_main_v83_apply, val_main_v82_apply]
  rw [show idx_main_v82 (idx_main_v83 (ix3 n c d)) = ix1 n by (funext a; match a with | ⟨0, _⟩ => rfl), v75_at]
  rfl

/-! ### The teacher's chain -/

/-- The masked teacher rows. -/
theorem v6_at : val_main_v6 (F := Ideal) x1 x2 (ix3 n c l) = erows x1 x2 n c l := by
  rw [val_main_v6_apply, val_main_v5_apply, val_main_v4_apply]
  rw [show idx_main_v4 (idx_main_v5 (ix3 n c l)) = ix2 n c by idx_cases2]
  rfl

/-- The squared norms of the masked teacher rows. -/
theorem v38_at : val_main_v38 (F := Ideal) x1 x2 (ix2 n c) = Cert.RelDist.sqn (erows x1 x2 n) c := by
  rw [val_main_v38_apply, val_main_cst_3_apply]
  show Ideal.ofBits .f32 0x00000000#32 + _ = _
  rw [Ideal.ofBits_zero_f32, zero_add]
  unfold Cert.RelDist.sqn
  refine Finset.sum_congr rfl fun k _ => ?_
  rw [show idx_main_v38 (ix2 n c) k = ix3 n c k by idx_cases3, val_main_v37_apply, v6_at]
  rfl

/-- The sum of the two rows' squared norms. -/
theorem v43_at : val_main_v43 (F := Ideal) x1 x2 (ix3 n c d)
    = Cert.RelDist.sqn (erows x1 x2 n) c + Cert.RelDist.sqn (erows x1 x2 n) d := by
  rw [val_main_v43_apply, val_main_v41_apply, val_main_v39_apply, val_main_v42_apply, val_main_v40_apply]
  rw [show idx_main_v39 (idx_main_v41 (ix3 n c d)) = ix2 n c by idx_cases2,
    show idx_main_v40 (idx_main_v42 (ix3 n c d)) = ix2 n d by idx_cases2, v38_at, v38_at]
  rfl

/-- The inner products of the masked teacher rows. -/
theorem v45_at : val_main_v45 (F := Ideal) x1 x2 (ix3 n c d) = Cert.RelDist.gram (erows x1 x2 n) c d := by
  rw [val_main_v45_apply]
  unfold Cert.RelDist.gram
  refine Finset.sum_congr rfl fun k _ => ?_
  rw [val_main_v44_apply,
    show lidx_main_v45 (ix3 n c d) k = ix3 n c k by idx_cases3,
    show idx_main_v44 (ridx_main_v45 (ix3 n c d) k) = ix3 n d k by idx_cases3, v6_at, v6_at]

/-- The clamped squared distance. -/
theorem v49_at : val_main_v49 (F := Ideal) x1 x2 (ix3 n c d)
    = max (Cert.RelDist.sqn (erows x1 x2 n) c + Cert.RelDist.sqn (erows x1 x2 n) d
        - Cert.RelDist.two * Cert.RelDist.gram (erows x1 x2 n) c d) Cert.RelDist.eps := by
  rw [val_main_v49_apply, val_main_call1_v1_apply, val_main_call1_v0_apply, val_main_cst_5_apply,
    val_main_v48_apply, val_main_v47_apply, val_main_v46_apply, val_main_cst_4_apply, v43_at, v45_at]
  exact max_comm _ _

/-- The off-diagonal factor, as the teacher's chain spells it. -/
theorem v60_at : val_main_v60 (F := Ideal) (ix3 n c d) = Cert.RelDist.offd c d := by
  rw [val_main_v60_apply, val_main_v59_apply]
  rw [show idx_main_v59 (idx_main_v60 (ix3 n c d)) = ix2 c d by idx_cases2]
  rw [val_main_v58_apply, val_main_v57_apply, val_main_cst_7_apply, val_main_v56_apply, val_main_v55_apply,
    val_main_v54_apply, val_main_v51_apply, val_main_v53_apply, val_main_c_6_apply, val_main_v52_apply]
  exact offd_eq c d

/-- The teacher's distance matrix. -/
theorem v61_at : val_main_v61 (F := Ideal) x1 x2 (ix3 n c d) = Cert.RelDist.dist (erows x1 x2 n) c d := by
  rw [val_main_v61_apply, val_main_v50_apply, v49_at, v60_at]
  rfl

/-- The teacher's counted pairs. -/
theorem v69_at : val_main_v69 (F := Ideal) x1 x2 (ix3 n c d)
    = Cert.RelDist.pos (mkn x2 n) (Cert.RelDist.dist (erows x1 x2 n)) c d := by
  rw [val_main_v69_apply, v11_at, val_main_v68_apply, val_main_v67_apply, v61_at, val_main_v66_apply,
    val_main_cst_9_apply, uitofp_bit]
  rfl

/-- A distance times its pair's count. -/
theorem v76_at : val_main_v76 (F := Ideal) x1 x2 (ix3 n c d)
    = Cert.RelDist.dist (erows x1 x2 n) c d * Cert.RelDist.pos (mkn x2 n) (Cert.RelDist.dist (erows x1 x2 n)) c d := by
  rw [val_main_v76_apply, v61_at, v69_at]
  rfl

/-- The teacher's mean distance over the counted pairs. -/
theorem v81_at : val_main_v81 (F := Ideal) x1 x2 (ix1 n)
    = Cert.RelDist.mean (mkn x2 n) (Cert.RelDist.dist (erows x1 x2 n)) := by
  rw [val_main_v81_apply, val_main_v80_apply, val_main_v79_apply, val_main_cst_15_apply]
  unfold val_main_v77 val_main_v78
  rw [sum_rows, sum_rows, val_main_cst_13_apply, val_main_cst_14_apply]
  show Ideal.div (Ideal.ofBits .f32 0x00000000#32 + _) (max (Ideal.ofBits .f32 0x00000000#32 + _) _) = _
  rw [Ideal.ofBits_zero_f32, zero_add, zero_add]
  unfold Cert.RelDist.mean Cert.RelDist.tot
  rw [Finset.sum_congr rfl fun c _ => Finset.sum_congr rfl fun d _ => v76_at x1 x2 n c d,
    Finset.sum_congr rfl fun c _ => Finset.sum_congr rfl fun d _ => v69_at x1 x2 n c d]
  rfl

/-- The teacher's mean-normalised distance. -/
theorem v87_at : val_main_v87 (F := Ideal) x1 x2 (ix3 n c d)
    = Ideal.div (Cert.RelDist.dist (erows x1 x2 n) c d) (Cert.RelDist.mean (mkn x2 n) (Cert.RelDist.dist (erows x1 x2 n))) := by
  rw [val_main_v87_apply, v61_at, val_main_v86_apply, val_main_v85_apply]
  rw [show idx_main_v85 (idx_main_v86 (ix3 n c d)) = ix1 n by (funext a; match a with | ⟨0, _⟩ => rfl), v81_at]
  rfl

/-! ### The two chains together -/

/-- The difference of the two mean-normalised distances. -/
theorem v88_at : val_main_v88 (F := Ideal) x0 x1 x2 (ix3 n c d)
    = Cert.RelDist.ndiff (mkn x2 n) (Cert.RelDist.dist (erows x0 x2 n)) (Cert.RelDist.dist (erows x1 x2 n)) c d := by
  rw [val_main_v88_apply, v84_at, v87_at]
  rfl

/-- The Huber function of that difference. -/
theorem v97_at : val_main_v97 (F := Ideal) x0 x1 x2 (ix3 n c d)
    = Cert.RelDist.huber
        (Cert.RelDist.ndiff (mkn x2 n) (Cert.RelDist.dist (erows x0 x2 n)) (Cert.RelDist.dist (erows x1 x2 n)) c d) := by
  rw [val_main_v97_apply, val_main_v91_apply, val_main_v89_apply, val_main_v90_apply, val_main_cst_16_apply,
    val_main_v94_apply, val_main_v93_apply, val_main_v92_apply, val_main_cst_17_apply,
    val_main_v96_apply, val_main_v89_apply, val_main_v95_apply, val_main_cst_18_apply, v88_at]
  rfl

/-- The sum, over the kept pairs, of the Huber function of the difference. -/
theorem v100_at : val_main_v100 (F := Ideal) x0 x1 x2 (ix1 n)
    = Cert.RelDist.tot fun c d =>
        Cert.RelDist.huber
            (Cert.RelDist.ndiff (mkn x2 n) (Cert.RelDist.dist (erows x0 x2 n)) (Cert.RelDist.dist (erows x1 x2 n)) c d)
          * Cert.RelDist.pairm (mkn x2 n) c d := by
  unfold val_main_v100
  rw [sum_rows, val_main_cst_20_apply]
  show Ideal.ofBits .f32 0x00000000#32 + _ = _
  rw [Ideal.ofBits_zero_f32, zero_add]
  unfold Cert.RelDist.tot
  refine Finset.sum_congr rfl fun c _ => Finset.sum_congr rfl fun d _ => ?_
  rw [val_main_v99_apply, v97_at, v11_at]
  rfl

end Stages

/-! ## The two results -/

/-- The reference's per-sample vector at sample `n` is the sample's loss. -/
theorem sample_loss (x0 x1 : (⟨S128x512x128, .f32⟩ : BufTy).Contents (Elt Ideal)) (x2 : (⟨S128x512, .i32⟩ : BufTy).Contents (Elt Ideal))
    (n : Fin 128) :
    val_main_v107 (F := Ideal) x0 x1 x2 (ix1 n) = Cert.RelDist.sample x0 x1 x2 n := by
  rw [val_main_v107_apply, val_main_v106_apply, val_main_v105_apply, val_main_cst_22_apply,
    val_main_v104_apply, val_main_v103_apply, val_main_v101_apply, val_main_v102_apply, val_main_cst_21_apply,
    val_main_call3_v1_apply, val_main_call3_v0_apply, val_main_cst_23_apply, v98_at, v100_at]
  rfl

/-- The reference's result is the sum of the samples' losses. -/
theorem result_eq (x0 x1 : (⟨S128x512x128, .f32⟩ : BufTy).Contents (Elt Ideal)) (x2 : (⟨S128x512, .i32⟩ : BufTy).Contents (Elt Ideal)) :
    val_main_v108 (F := Ideal) x0 x1 x2 = Cert.RelDist.total x0 x1 x2 := by
  funext i
  rw [val_main_v108_apply, val_main_cst_24_apply]
  unfold Cert.RelDist.total
  refine congrArg (Cert.RelDist.zero + ·) ?_
  refine Fintype.sum_equiv ⟨fun j => j 0, fun k => ix1 k, fun j => (eq_ix1 j).symm, fun _ => rfl⟩ _ _ fun j => ?_
  rw [eq_ix1 j]
  exact sample_loss x0 x1 x2 (j 0)

end Cert.ReferenceIdeal.RefValue

end
-- ==== Proof.lean ====
/-
  A masked pairwise-distance Huber loss, summed over 128 samples: the kernel against its reference, on the extended reals.

  Both programs take student and teacher embeddings `[128, 512, 128]` and an integer mask `[128, 512]`, and return one
  number. For each sample the rows are scaled by the mask read as numbers; the pairwise distances of the student's rows,
  and of the teacher's, are `√(max(‖e c‖² + ‖e d‖² − 2⟨e c, e d⟩, ε))` off the diagonal and zero on it; each distance matrix is
  divided by its mean over the pairs of kept rows at positive distance; the Huber function of the difference is summed over
  the pairs of kept rows and divided by `max(k², 1)`, `k` the number of kept rows, and the sample's loss is that quotient when
  `k > 1`, else zero (Proof/RelDist.lean states it as one function, `loss`, and the result as `total`, the sum of the losses).

  The kernel runs a grid of 32 points of four samples each: a point's stored `4 × 1 × 1` vector is the four samples' losses
  (Proof/BodyValue.lean), the points' blocks tile the `[128, 1, 1]` output array (Proof/Blocks.lean), and the host sums that
  array (Proof/KernelRun.lean). The reference computes all 128 samples at once on the host and sums the `[128]` vector of
  losses (Proof/RefValue.lean, over the program read one operation at a time). At the extended reals the two differ only
  in spellings that agree there: a change of float format is the identity; the kernel's matrix product into a zero accumulator
  and the reference's contraction are the same sum of products; a pair sum taken along one axis and then the other is the
  sum over both at once (addition is commutative and associative on the extended reals, infinities included); the
  clamp's two operands come in either order; the off-diagonal factor is the indicator of `c ≠ d` or one minus the indicator of
  `c = d`. No step moves a factor across a sum or cancels anything, so the finiteness of the inputs is never used.

  The three frames: the kernel's two programs by their generated frame certificates; the reference's by its run with the
  result dropped. The idealization rewrote no operation, so what it must preserve is `True`.
-/
import proofs.«146603_j2585570312402_1_alg».proof.Defs
import proofs.«146603_j2585570312402_1_alg».proof.Proof.Gen.Kernel
import proofs.«146603_j2585570312402_1_alg».proof.Proof.Gen.Kernel.Frame
import proofs.«146603_j2585570312402_1_alg».proof.Proof.Gen.KernelIdeal
import proofs.«146603_j2585570312402_1_alg».proof.Proof.Gen.KernelIdeal.Frame
import proofs.«146603_j2585570312402_1_alg».proof.Proof.Gen.ReferenceIdeal
import proofs.«146603_j2585570312402_1_alg».proof.Proof.Gen.Pre_finite_inputs
import proofs.«146603_j2585570312402_1_alg».proof.Proof.RelDist
import proofs.«146603_j2585570312402_1_alg».proof.Proof.KernelRun
import proofs.«146603_j2585570312402_1_alg».proof.Proof.RefRun
import proofs.«146603_j2585570312402_1_alg».proof.Proof.RefRead
import proofs.«146603_j2585570312402_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- Both programs end with their result at `total` of the argument arrays, which agree. -/
theorem algebraic : Cert.algebraic_KernelIdeal_ReferenceIdeal := by
  intro m ρ m' ρ' _ hagree
  refine ⟨fun c => Cert.RelDist.total (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.RunValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v108_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
